-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x256x128x128 : Shape := ⟨4, ![8, 256, 128, 128]⟩
abbrev S_ : Shape := ⟨0, ![]⟩

class Facts : Prop where
  bcast_S_S8x256x128x128 : S_.BroadcastsInDim S8x256x128x128 (![] : Fin 0 → Fin S8x256x128x128.rank)
  reducesTo_S8x256x128x128_S_d0_1_2_3 : S8x256x128x128.ReducesTo [0, 1, 2, 3] S_
  h_S_ : 0 < S_.numel

variable [Facts]

def fn {F : FTy → Type} [FloatOps F] (main_arg0 : FVec F S8x256x128x128 .f32) : IVec S_ 1 :=
  let main_v0 : FVec F S8x256x128x128 .f32 := Host.absf main_arg0
  let main_cst : FVec F S_ .f32 := constant S_ .f32 0x7F800000#32
  let main_v1 : FVec F S8x256x128x128 .f32 := broadcastInDim S8x256x128x128 ![] bcast_S_S8x256x128x128 main_cst
  let main_v2 : IVec S8x256x128x128 1 := cmpf .olt main_v0 main_v1
  let main_c : IVec S_ 1 := constantI S_ 1 1#1
  let main_v3 : IVec S_ 1 := (fun x v => Host.reduce IntOp.andi x v reducesTo_S8x256x128x128_S_d0_1_2_3 h_S_) main_v2 main_c
  main_v3
-- ==== Kernel.lean ====
abbrev S8x256x128x128 : Shape := ⟨4, ![8, 256, 128, 128]⟩
abbrev S8x64x256x256 : Shape := ⟨4, ![8, 64, 256, 256]⟩
abbrev S1x16x128x128 : Shape := ⟨4, ![1, 16, 128, 128]⟩
abbrev S1x16x256x256 : Shape := ⟨4, ![1, 16, 256, 256]⟩
abbrev S16x128x128 : Shape := ⟨3, ![16, 128, 128]⟩
abbrev S16x128x128x1 : Shape := ⟨4, ![16, 128, 128, 1]⟩
abbrev S16x128x128x2 : Shape := ⟨4, ![16, 128, 128, 2]⟩
abbrev S16x128x256 : Shape := ⟨3, ![16, 128, 256]⟩
abbrev S16x128x1x256 : Shape := ⟨4, ![16, 128, 1, 256]⟩
abbrev S16x128x2x256 : Shape := ⟨4, ![16, 128, 2, 256]⟩
abbrev S16x256x256 : Shape := ⟨3, ![16, 256, 256]⟩

abbrev nBuf : Space → Nat
  | .hbm => 2
  | .vmem => 10
  | .smem => 0
  | _ => 0

abbrev bufTy : (tb : Table) → Fin (tcTables nBuf tb) → BufTy
  | .hbm, ⟨0, _⟩ => ⟨S8x256x128x128, .f32⟩
  | .hbm, ⟨1, _⟩ => ⟨S8x64x256x256, .f32⟩
  | .local _ .vmem, ⟨0, _⟩ => ⟨S1x16x128x128, .f32⟩
  | .local _ .vmem, ⟨1, _⟩ => ⟨S1x16x128x128, .f32⟩
  | .local _ .vmem, ⟨2, _⟩ => ⟨S1x16x128x128, .f32⟩
  | .local _ .vmem, ⟨3, _⟩ => ⟨S1x16x128x128, .f32⟩
  | .local _ .vmem, ⟨4, _⟩ => ⟨S1x16x128x128, .f32⟩
  | .local _ .vmem, ⟨5, _⟩ => ⟨S1x16x128x128, .f32⟩
  | .local _ .vmem, ⟨6, _⟩ => ⟨S1x16x128x128, .f32⟩
  | .local _ .vmem, ⟨7, _⟩ => ⟨S1x16x128x128, .f32⟩
  | .local _ .vmem, ⟨8, _⟩ => ⟨S1x16x256x256, .f32⟩
  | .local _ .vmem, ⟨9, _⟩ => ⟨S1x16x256x256, .f32⟩
  | _, _ => ⟨S8x256x128x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![8, 4], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  let c0_i32_2 : BitVec 32 := 0#32
  ![arg0.toNat, v0.toNat, c0_i32_0.toNat, c0_i32_1.toNat]

def cc0_transform_1 (i : grid0.Coords) : Fin 4 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c0_i32 : BitVec 32 := 0#32
  let c0_i32_0 : BitVec 32 := 0#32
  let c0_i32_1 : BitVec 32 := 0#32
  ![arg0.toNat, v0.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg1
  let c0_i32 : BitVec 32 := 0#32
  let c0_i32_0 : BitVec 32 := 0#32
  let c0_i32_1 : BitVec 32 := 0#32
  ![arg0.toNat, v0.toNat, c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let c12_i32 : BitVec 32 := 12#32
  let v0 : BitVec 32 := Scalar.addi c12_i32 arg1
  let c0_i32 : BitVec 32 := 0#32
  let c0_i32_0 : BitVec 32 := 0#32
  let c0_i32_1 : BitVec 32 := 0#32
  ![arg0.toNat, v0.toNat, c0_i32.toNat, c0_i32_0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x16x128x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x16x128x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x16x128x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x16x128x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x16x256x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  inb_S1x16x128x128_S1x16x128x128_0_0_0_0 : ∀ a, (![0, 0, 0, 0] : Fin 4 → Nat) a + S1x16x128x128.size a ≤ S1x16x128x128.size a
  h_S1x16x128x128 : 0 < S1x16x128x128.numel
  shapeCasts_S1x16x128x128_S16x128x128 : S1x16x128x128.ShapeCasts S16x128x128
  shapeCasts_S16x128x128_S16x128x128x1 : S16x128x128.ShapeCasts S16x128x128x1
  concatenates_S16x128x128x1_S16x128x128x1_S16x128x128x2_d3 : Shape.Concatenates [S16x128x128x1, S16x128x128x1] S16x128x128x2 3
  shapeCasts_S16x128x128x2_S16x128x256 : S16x128x128x2.ShapeCasts S16x128x256
  shapeCasts_S16x128x256_S16x128x1x256 : S16x128x256.ShapeCasts S16x128x1x256
  concatenates_S16x128x1x256_S16x128x1x256_S16x128x2x256_d2 : Shape.Concatenates [S16x128x1x256, S16x128x1x256] S16x128x2x256 2
  shapeCasts_S16x128x2x256_S16x256x256 : S16x128x2x256.ShapeCasts S16x256x256
  inb_S1x16x256x256_S1x16x256x256_0_0_0_0 : ∀ a, (![0, 0, 0, 0] : Fin 4 → Nat) a + S1x16x256x256.size a ≤ S1x16x256x256.size a
  h_S1x16x256x256 : 0 < S1x16x256x256.numel
  shapeCasts_S1x16x256x256_S16x256x256 : S1x16x256x256.ShapeCasts S16x256x256
  shapeCasts_S16x256x256_S1x16x256x256 : S16x256x256.ShapeCasts S1x16x256x256
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x16x128x128.size a ≤ S8x256x128x128.size a
  hwx0_0 : ∀ i : grid0.Coords, EltTy.bits .f32 = 32 ∨ (Rect.block (s := S8x256x128x128) S1x16x128x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x16x128x128.size a ≤ S8x256x128x128.size a
  hwx0_1 : ∀ i : grid0.Coords, EltTy.bits .f32 = 32 ∨ (Rect.block (s := S8x256x128x128) S1x16x128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x16x128x128.size a ≤ S8x256x128x128.size a
  hwx0_2 : ∀ i : grid0.Coords, EltTy.bits .f32 = 32 ∨ (Rect.block (s := S8x256x128x128) S1x16x128x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x16x128x128.size a ≤ S8x256x128x128.size a
  hwx0_3 : ∀ i : grid0.Coords, EltTy.bits .f32 = 32 ∨ (Rect.block (s := S8x256x128x128) S1x16x128x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x16x256x256.size a ≤ S8x64x256x256.size a
  hwx0_4 : ∀ i : grid0.Coords, EltTy.bits .f32 = 32 ∨ (Rect.block (s := S8x64x256x256) S1x16x256x256.size (cc0_transform_4 i) (hinb0_4 i)).WholeWords (EltTy.packing .f32)

variable [Facts₀]

abbrev win0_0 : Pipeline.Window sig grid0 :=
  Pipeline.Window.ofSpec (Memref.whole main_arg0) S1x16x128x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S1x16x128x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg0) S1x16x128x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg0) S1x16x128x128.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0) S1x16x256x256.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S8x256x128x128 : Shape := ⟨4, ![8, 256, 128, 128]⟩
abbrev S8x64x128x128 : Shape := ⟨4, ![8, 64, 128, 128]⟩
abbrev S8x64x128x128x1 : Shape := ⟨5, ![8, 64, 128, 128, 1]⟩
abbrev S8x64x128x128x2 : Shape := ⟨5, ![8, 64, 128, 128, 2]⟩
abbrev S8x64x128x128x1x2 : Shape := ⟨6, ![8, 64, 128, 128, 1, 2]⟩
abbrev S8x64x128x128x2x2 : Shape := ⟨6, ![8, 64, 128, 128, 2, 2]⟩
abbrev S8x64x128x2x128x2 : Shape := ⟨6, ![8, 64, 128, 2, 128, 2]⟩
abbrev S8x64x256x256 : Shape := ⟨4, ![8, 64, 256, 256]⟩

abbrev nBuf : Space → Nat
  | .hbm => 24
  | .vmem => 0
  | .smem => 0
  | _ => 0

abbrev bufTy : (tb : Table) → Fin (tcTables nBuf tb) → BufTy
  | .hbm, ⟨0, _⟩ => ⟨S8x256x128x128, .f32⟩
  | .hbm, ⟨1, _⟩ => ⟨S8x64x128x128, .f32⟩
  | .hbm, ⟨2, _⟩ => ⟨S8x64x128x128, .f32⟩
  | .hbm, ⟨3, _⟩ => ⟨S8x64x128x128, .f32⟩
  | .hbm, ⟨4, _⟩ => ⟨S8x64x128x128, .f32⟩
  | .hbm, ⟨5, _⟩ => ⟨S8x64x128x128, .f32⟩
  | .hbm, ⟨6, _⟩ => ⟨S8x64x128x128, .f32⟩
  | .hbm, ⟨7, _⟩ => ⟨S8x64x128x128, .f32⟩
  | .hbm, ⟨8, _⟩ => ⟨S8x64x128x128, .f32⟩
  | .hbm, ⟨9, _⟩ => ⟨S8x64x128x128, .f32⟩
  | .hbm, ⟨10, _⟩ => ⟨S8x64x128x128, .f32⟩
  | .hbm, ⟨11, _⟩ => ⟨S8x64x128x128, .f32⟩
  | .hbm, ⟨12, _⟩ => ⟨S8x64x128x128, .f32⟩
  | .hbm, ⟨13, _⟩ => ⟨S8x64x128x128x1, .f32⟩
  | .hbm, ⟨14, _⟩ => ⟨S8x64x128x128x1, .f32⟩
  | .hbm, ⟨15, _⟩ => ⟨S8x64x128x128x2, .f32⟩
  | .hbm, ⟨16, _⟩ => ⟨S8x64x128x128x1, .f32⟩
  | .hbm, ⟨17, _⟩ => ⟨S8x64x128x128x1, .f32⟩
  | .hbm, ⟨18, _⟩ => ⟨S8x64x128x128x2, .f32⟩
  | .hbm, ⟨19, _⟩ => ⟨S8x64x128x128x1x2, .f32⟩
  | .hbm, ⟨20, _⟩ => ⟨S8x64x128x128x1x2, .f32⟩
  | .hbm, ⟨21, _⟩ => ⟨S8x64x128x128x2x2, .f32⟩
  | .hbm, ⟨22, _⟩ => ⟨S8x64x128x2x128x2, .f32⟩
  | .hbm, ⟨23, _⟩ => ⟨S8x64x256x256, .f32⟩
  | _, _ => ⟨S8x256x128x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_v9 : Ref sig .tc := ⟨.hbm, 10, rfl⟩
abbrev main_v10 : Ref sig .tc := ⟨.hbm, 11, rfl⟩
abbrev main_v11 : Ref sig .tc := ⟨.hbm, 12, rfl⟩
abbrev main_v12 : Ref sig .tc := ⟨.hbm, 13, rfl⟩
abbrev main_v13 : Ref sig .tc := ⟨.hbm, 14, rfl⟩
abbrev main_v14 : Ref sig .tc := ⟨.hbm, 15, rfl⟩
abbrev main_v15 : Ref sig .tc := ⟨.hbm, 16, rfl⟩
abbrev main_v16 : Ref sig .tc := ⟨.hbm, 17, rfl⟩
abbrev main_v17 : Ref sig .tc := ⟨.hbm, 18, rfl⟩
abbrev main_v18 : Ref sig .tc := ⟨.hbm, 19, rfl⟩
abbrev main_v19 : Ref sig .tc := ⟨.hbm, 20, rfl⟩
abbrev main_v20 : Ref sig .tc := ⟨.hbm, 21, rfl⟩
abbrev main_v21 : Ref sig .tc := ⟨.hbm, 22, rfl⟩
abbrev main_v22 : Ref sig .tc := ⟨.hbm, 23, rfl⟩

abbrev nD : Nat := 1
abbrev τ : Topo := Topo.v7x

variable {F : FTy → Type} [FloatOps F]

class Facts₀ : Prop where
  slices_S8x256x128x128_S8x64x128x128_0_0_0_0 : S8x256x128x128.Slices ![0, 0, 0, 0] S8x64x128x128
  slices_S8x256x128x128_S8x64x128x128_0_64_0_0 : S8x256x128x128.Slices ![0, 64, 0, 0] S8x64x128x128
  slices_S8x256x128x128_S8x64x128x128_0_128_0_0 : S8x256x128x128.Slices ![0, 128, 0, 0] S8x64x128x128
  slices_S8x256x128x128_S8x64x128x128_0_192_0_0 : S8x256x128x128.Slices ![0, 192, 0, 0] S8x64x128x128
  bcast_S8x64x128x128_S8x64x128x128x1_0_1_2_3 : S8x64x128x128.BroadcastsInDim S8x64x128x128x1 (![0, 1, 2, 3] : Fin 4 → Fin S8x64x128x128x1.rank)
  concatenates_S8x64x128x128x1_S8x64x128x128x1_S8x64x128x128x2_d4 : Shape.Concatenates [S8x64x128x128x1, S8x64x128x128x1] S8x64x128x128x2 4
  bcast_S8x64x128x128x2_S8x64x128x128x1x2_0_1_2_3_5 : S8x64x128x128x2.BroadcastsInDim S8x64x128x128x1x2 (![0, 1, 2, 3, 5] : Fin 5 → Fin S8x64x128x128x1x2.rank)
  concatenates_S8x64x128x128x1x2_S8x64x128x128x1x2_S8x64x128x128x2x2_d4 : Shape.Concatenates [S8x64x128x128x1x2, S8x64x128x128x1x2] S8x64x128x128x2x2 4
  transposes_S8x64x128x128x2x2_S8x64x128x2x128x2_0_1_2_4_3_5 : S8x64x128x128x2x2.Transposes [0, 1, 2, 4, 3, 5] S8x64x128x2x128x2
  shapeCasts_S8x64x128x2x128x2_S8x64x256x256 : S8x64x128x2x128x2.ShapeCasts S8x64x256x256

variable [Facts₀]

class Facts : Prop extends Facts₀ where

variable [Facts]
-- ==== Proof.BodyBits.lean ====
/-
  The body of the inverse-Haar kernel at one grid point, and the data the pipeline's frame run is stated over.

  The grid has 8 × 4 points (batch, block of 16 output channels). At a point the pipeline hands the body four
  [1, 16, 128, 128] blocks of the ONE input array — the same 16 channels of each of its four sub-bands — and one
  [1, 16, 256, 256] staging buffer for the output block. The body loads the four blocks whole, loads the output
  buffer (a value it never uses), and stores one value over the whole output buffer: the interleaved 2×2 blocks,
  a pure function of the four loads. So after the body the four input buffers hold what they held, and the
  output buffer holds that function of them, whatever it held before.
-/
import proofs.«171066_j38465727103452_2_alg».proof.Proof.Gen.Kernel.Launch
import proofs.«171066_j38465727103452_2_alg».proof.Proof.Gen.Kernel.Skeleton
import proofs.«171066_j38465727103452_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program up to its one region -/

/-- The core's buffers when the region is entered: as launched (the program is the region alone). -/
abbrev V (c : Dev nD) (b : Ref sig .tc) : Buf (Elt F) ((c : Thread nD τ).loc b) := m ((c : Thread nD τ).loc b)

theorem hmain (𝒱₀ : Variants) : Pipeline.HMain (Ix := Unit) (Name := ℕ) (U := UR sig nD τ) (Lvl := ℕ) cfgs 0 defs₀ 𝒱₀ m (main (F := F)) (V m) :=
  Pipeline.hmain_region cfgs 0 defs₀ 𝒱₀ m main fun c => (main_chain c).trans rfl

theorem V_main_arg0 (c : Dev nD) : V m c main_arg0 = m ((c : Thread nD τ).loc main_arg0) := rfl

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's staging buffer holds its block at every point, for any proof data whose array is the
    region-entry contents and whose body leaves the block in place: every block tiles the array and no point is idle. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The body's accesses and what it leaves in the output buffer -/

/-- The whole input block and the whole output block, as rectangles. -/
abbrev rIn : Rect S1x16x128x128 := Rect.unit (s := S1x16x128x128) ![0, 0, 0, 0] S1x16x128x128.size inb_S1x16x128x128_S1x16x128x128_0_0_0_0
abbrev rOut : Rect S1x16x256x256 := Rect.unit (s := S1x16x256x256) ![0, 0, 0, 0] S1x16x256x256.size inb_S1x16x256x256_S1x16x256x256_0_0_0_0

/-- The output buffer after the body, from the four input blocks: its one store, of the interleaved value. -/
def outBlock (x0 x1 x2 x3 : Vec F S1x16x128x128 .f32) : Vec F S1x16x256x256 .f32 :=
  View.canon [⟨rOut, k0_pay1 (View.ld x0 rIn) (View.ld x1 rIn) (View.ld x2 rIn) (View.ld x3 rIn)⟩]

/-- The one store covers the buffer. -/
theorem coverOut (p0 : Vec F S1x16x256x256 .f32) (y : S1x16x256x256.Idx) :
    ∃ pc ∈ ([⟨rOut, p0⟩] : List (View.Piece (Elt F) S1x16x256x256 .f32)), y ∈ pc.1.set :=
  View.cover_of_tiled [⟨rOut, p0⟩] S1x16x256x256.size (by rfl) y

/-! ## The body's triple -/

set_option maxHeartbeats 1000000 in
/-- The body on whole staging memrefs, the inputs' at contents `xW` and the output's at anything, runs to the
    continuation holding the inputs' as they were and the output's at `outBlock` of them. -/
theorem sound_kernel (c : Dev nD) (E : Set ℕ) (i : grid0.Coords)
    (arg2 : Memref sig .tc .vmem S1x16x128x128 .f32) (harg2 : arg2.IsWhole) (arg3 : Memref sig .tc .vmem S1x16x128x128 .f32) (harg3 : arg3.IsWhole)
    (arg4 : Memref sig .tc .vmem S1x16x128x128 .f32) (harg4 : arg4.IsWhole) (arg5 : Memref sig .tc .vmem S1x16x128x128 .f32) (harg5 : arg5.IsWhole)
    (arg6 : Memref sig .tc .vmem S1x16x256x256 .f32) (harg6 : arg6.IsWhole)
    (x0 x1 x2 x3 : Vec F S1x16x128x128 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ (∃ d, owns (c : Thread nD τ) arg6 fullShare d)
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare (outBlock x0 x1 x2 x3)) -∗ K ⟨⟩))
      ⊢ wp frame (wpE (defs₀ (F := F)) Variants.none c none) E (cc0_kernel i arg2 harg2 arg3 harg3 arg4 harg4 arg5 harg5 arg6 harg6) K := by
  simp only [cc0_kernel_eq_skeleton]; unfold cc0_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (coverOut _)

/-! ## The pipeline's proof data -/

/-- The proof data on core `c`: the arrays as the region finds them; after the body at point `t` each input's buffer
    at its block and the output's at `outBlock` of the four input blocks; the invariant the core's scoped buffers
    that are no staging buffer (the body names none); nothing owed; the ONE input array's full share dealt in
    quarters to the four windows on it. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outBlock (iblk m c 0 t) (iblk m c 1 t) (iblk m c 2 t) (iblk m c 3 t)
  Φ _ := Pipeline.scopedRest (Ix := Unit) (Name := ℕ) (U := UR sig nD τ) (Lvl := ℕ) (Val := Elt F) spec0 c
  q w := match w with
    | ⟨0, _⟩ => fullShare.left.left
    | ⟨1, _⟩ => fullShare.left.right
    | ⟨2, _⟩ => fullShare.right.left
    | ⟨3, _⟩ => fullShare.right.right
    | ⟨4, _⟩ => fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) :
    (dats m 0 c).after 4 t = outBlock (iblk m c 0 t) (iblk m c 1 t) (iblk m c 2 t) (iblk m c 3 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t))

/-- The body at any point: the inputs' buffers hold their blocks, so `sound_kernel` applies; the invariant and what
    the core owes pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).Φ t.succ = (dats m 0 c).Φ t.castSucc from rfl,
    show (dats m 0 c).owesAt () t.succ = (dats m 0 c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel c Set.univ (grid0.coords t) _ _ _ _ _ _ _ _ _ _ (iblk m c 0 t) (iblk m c 1 t) (iblk m c 2 t) (iblk m c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation (c : Dev nD) : BodyObligation (dats (F := F) m 0 c) (defs₀ (F := F)) Variants.none () Set.univ := fun t => by
  rw [bigSep_W0, bigSep_W0]
  exact sound_body m c t

end Cert.Kernel.Hand

end
-- ==== Proof.LibSharedFrame.lean ====
/-
  A frame run for a pipeline whose INPUT WINDOWS SHARE AN ARRAY, and the split of a buffer's full share among four holders.

  * `θ_run_frame_shared` — the launch half of a frame certificate for a kernel of the plainest class (one region on a
    static grid, no semaphore, transfer or cross-core traffic of its own) when ONE array is handed to SEVERAL windows of the
    pipeline, so that the windows' arrays are not pairwise distinct. In place of the distinctness of the arrays, the
    certificate supplies an entailment: the buffers behind the arrays, each whole at the full share at the contents they hold
    at the region's entry, yield the proof data's arrays at entry (an array read through several windows is dealt among
    them, each window holding its fraction). The region invariant is the scoped rest alone — the kernel's scratch at some
    contents; the generator register is not part of it, so the theorem serves a body that never draws a random number. The
    conclusion is the frame post: every window's array holds, after the last write-back, what the library computes from the
    proof data, and every unscoped buffer that is no array of the pipeline holds what it held at the region's entry.

  * `pointsTo_quarters` — a points-to of some elements of a buffer at the full share is four points-tos of the same
    elements at the same contents, at the four quarter shares (the two halves of each half of the full share).
-/
import Idealize.ShloMosaic.Lib.Pipeline.Frame

noncomputable section

namespace Idealize.ShloMosaic

open Idealize.SL
open Idealize.SL.BI (sProp bigSep bigSep_map)
open scoped Idealize.SL.BI
open Idealize.SL.BI.BIBase Idealize.SL.BI.Laws Idealize.SL.Sem Idealize.SL.ProofMode
open Idealize.SL.RA
open TcCoe

set_option Elab.async false

variable {nD : Nat} {τ : Topo} {sig : RefSig} {Val : EltTy → Type}

namespace Pipeline

open Idealize.ShloMosaic.Rounds

/-- THE FRAME RUN of a kernel whose windows may share arrays. At the compiled mesh, for any values, from any memory with
    zero counters, every weakly fair execution of @main on the TensorCores terminates, and every final state satisfies
    the frame post. The arrays of the windows need not be distinct: `hsplit` says how the buffers behind them, whole at
    their contents at the region's entry, make the proof data's arrays at point 0. The invariant at every point is the
    scoped rest (`hΦ`); the unscoped buffers that are no array bypass the region and are read back at the end. -/
theorem θ_run_frame_shared {Λ₀ : SL.Sem.Labels} {P : Type} [Fintype P] [DecidableEq P] [∀ e, Nonempty (Val e)]
    (cfgs : P → Cfg sig Λ₀) (dats : (p : P) → (c : Dev nD) → Dat τ Val Unit ℕ (UR sig nD τ) ℕ (cfgs p) c) (p : P)
    (hinj : Function.Injective (cellOf (nD := nD) (τ := τ) cfgs)) (hw : WinFacts₀ (cfgs p).spec)
    (hne : ∀ w : Fin (cfgs p).W, 0 < ((cfgs p).spec w).block.numel)
    (harr : ∀ w, ((cfgs p).spec w).arr.IsWhole) (hstage : ∀ w s, (((cfgs p).spec w).stage s).IsWhole)
    (defs₀ : Defs nD τ sig Val Λ₀) (𝒱₀ : Variants)
    (m : (ℓ : Loc nD τ sig) → Buf Val ℓ) (g : Dev nD → PrngReg)
    (main : Dev nD → Prog (TpuEff nD τ sig Val (Sig Λ₀ P fun p => ((cfgs p).toPCfg (Val := Val)).Adm) .tc) PUnit)
    (hbody : ∀ c, BodyObligationLoose (dats p c) defs₀ 𝒱₀ () Set.univ)
    (howed : ∀ c t, (dats p c).owed t = 0)
    (V : (c : Dev nD) → (b : Ref sig .tc) → Buf Val ((c.tc : Thread nD τ).loc b))
    (hmain : HMain (Ix := Unit) (Name := ℕ) (U := UR sig nD τ) (Lvl := ℕ) cfgs p defs₀ 𝒱₀ m main V)
    (hsplit : ∀ c, arrBufs (Ix := Unit) (Name := ℕ) (U := UR sig nD τ) (Lvl := ℕ) (cfgs p).spec c (V c) ⊢ (dats p c).arrays ((dats p c).arrAt · 0))
    (hΦ : ∀ c t, (dats p c).Φ t = scopedRest (Ix := Unit) (Name := ℕ) (U := UR sig nD τ) (Lvl := ℕ) (Val := Val) (cfgs p).spec c) :
    θ_run (Pipeline.defs (fun q => Cfg.toPCfg (Val := Val) (cfgs q)) defs₀) (onTc main) (s₀ m g) (FramePost cfgs dats p V) := by
  classical
  exact θ_run_region_noSem_shared cfgs dats () hinj p hw emb₁ defs₀ 𝒱₀ m g main hbody hne harr hstage howed
    (u₀ := initOf (cells cfgs hinj) (launchToks cfgs hinj))
    (hu₀ := .rfl)
    (V := V) (hmain := hmain) (hsplit := hsplit)
    (X := fun _ => iprop(emp)) (Y := fun _ => iprop(emp))
    (Z := fun c => unscopedRest (Ix := Unit) (Name := ℕ) (U := UR sig nD τ) (Lvl := ℕ) (cfgs p).spec c (V c))
    (hX := fun c => by
      iintro H
      isplitr; · iempintro
      iexact H)
    (hin := fun c => by
      rw [hΦ]
      iintro ⟨-, H⟩; iexact H)
    (hout := fun c => by
      rw [hΦ]
      iintro H
      isplitr; · iempintro
      iexact H)
    (QY := fun c s => ∀ b ∈ restRefs sig (cfgs p).spec, s.mem ((c.tc : Thread nD τ).loc b) = V c b)
    (hY := fun c s' => by
      iintro ⟨-, HU, HSI⟩
      unfold unscopedRest
      imodintro
      iapply (pointsTo_read_all (restRefs sig (cfgs p).spec) (fun b => (c.tc : Thread nD τ).loc b) (V c) s')
      isplitl [HU] <;> iassumption)
    (hQ := fun s h c => ⟨(h c).1, (h c).2⟩)

/-- The full share of some elements of a buffer, dealt to four holders: the two halves of the full share, each halved
    again. Each holder may read the elements; none may write them until the four are put together again. -/
theorem pointsTo_quarters {Ix : Type} [DecidableEq Ix] {Name : Type} [DecidableEq Name] {U : Type} [URA U] {Lvl : Type}
    {ℓ : Loc nD τ sig} (I : Finset (Idx ℓ)) (f : Buf Val ℓ) :
    (ℓ ↦[I]{fullShare} f : sProp (MT nD τ sig Ix Val Name U Lvl))
      ⊢ iprop((ℓ ↦[I]{fullShare.left.left} f) ∗ (ℓ ↦[I]{fullShare.left.right} f) ∗ (ℓ ↦[I]{fullShare.right.left} f) ∗ (ℓ ↦[I]{fullShare.right.right} f)) := by
  iintro H
  icases (pointsTo_share (PosShare.mem_left_op_right fullShare)).1 $$ H with ⟨HL, HR⟩
  icases (pointsTo_share (PosShare.mem_left_op_right fullShare.left)).1 $$ HL with ⟨HLL, HLR⟩
  icases (pointsTo_share (PosShare.mem_left_op_right fullShare.right)).1 $$ HR with ⟨HRL, HRR⟩
  isplitl [HLL]; · iexact HLL
  isplitl [HLR]; · iexact HLR
  isplitl [HRL]; · iexact HRL
  iexact HRR

end Pipeline

end Idealize.ShloMosaic
-- ==== Proof.RunBits.lean ====
/-
  The frame run of the inverse-Haar kernel: every weakly fair execution terminates, the input array ends as it was
  launched, and the output array ends at what the pipeline library computes from the body's stores.

  The four input windows read ONE array. The launch therefore deals that array's full share in four quarters, one to
  each window (each window only reads), and the output array's full share to the output window; the frame run for
  windows that share an array takes exactly that dealing as its one extra hypothesis.
-/
import proofs.«171066_j38465727103452_2_alg».proof.Proof.BodyBits
import proofs.«171066_j38465727103452_2_alg».proof.Proof.LibSharedFrame

set_option maxRecDepth 16384

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The buffers behind the five windows' arrays are two: the input and the output. -/
theorem arrRefs_eq : Finset.univ.image (Pipeline.arrRef spec0) = [main_arg0, main_v0].toFinset := by decide

/-- The dealing: the input buffer's full share in quarters to the four input windows, the output buffer's to the
    output window, each at the contents the region finds. -/
theorem arrays_dealt (c : Dev nD) :
    Pipeline.arrBufs (Ix := Unit) (Name := ℕ) (U := UR sig nD τ) (Lvl := ℕ) spec0 c (V m c)
      ⊢ (dats m 0 c).arrays ((dats m 0 c).arrAt · 0) := by
  unfold Pipeline.arrBufs Pipeline.Dat.arrays
  rw [bigSep_eq_bigSepL_of_eq [main_arg0, main_v0] arrRefs_eq (by decide), bigSep_W0]
  have hA0 : (dats m 0 c).arrAt 0 0 = V m c main_arg0 := A_eq m c 0
  have hA1 : (dats m 0 c).arrAt 1 0 = V m c main_arg0 := A_eq m c 1
  have hA2 : (dats m 0 c).arrAt 2 0 = V m c main_arg0 := A_eq m c 2
  have hA3 : (dats m 0 c).arrAt 3 0 = V m c main_arg0 := A_eq m c 3
  have hA4 : (dats m 0 c).arrAt 4 0 = V m c main_v0 := A_eq m c 4
  have hq0 : (dats m 0 c).share 0 = fullShare.left.left := by unfold Dat.share; rfl
  have hq1 : (dats m 0 c).share 1 = fullShare.left.right := by unfold Dat.share; rfl
  have hq2 : (dats m 0 c).share 2 = fullShare.right.left := by unfold Dat.share; rfl
  have hq3 : (dats m 0 c).share 3 = fullShare.right.right := by unfold Dat.share; rfl
  have hq4 : (dats m 0 c).share 4 = fullShare := by unfold Dat.share; rfl
  have hs0 : (cfg0.win 0).arr.view.set = Finset.univ := (arr_whole0 0).set_eq_univ
  have hs1 : (cfg0.win 1).arr.view.set = Finset.univ := (arr_whole0 1).set_eq_univ
  have hs2 : (cfg0.win 2).arr.view.set = Finset.univ := (arr_whole0 2).set_eq_univ
  have hs3 : (cfg0.win 3).arr.view.set = Finset.univ := (arr_whole0 3).set_eq_univ
  have hs4 : (cfg0.win 4).arr.view.set = Finset.univ := (arr_whole0 4).set_eq_univ
  simp only [bigSepL_cons_cons, bigSepL_singleton, hs0, hs1, hs2, hs3, hs4, hq0, hq1, hq2, hq3, hq4, hA0, hA1, hA2, hA3, hA4]
  show iprop((((c.tc : Thread nD τ).loc main_arg0) ↦{fullShare} V m c main_arg0) ∗ (((c.tc : Thread nD τ).loc main_v0) ↦{fullShare} V m c main_v0)) ⊢ _
  iintro ⟨Ha, Hv⟩
  icases (Pipeline.pointsTo_quarters (Ix := Unit) (Name := ℕ) (U := UR sig nD τ) (Lvl := ℕ) (ℓ := (c.tc : Thread nD τ).loc main_arg0) Finset.univ (V m c main_arg0)) $$ Ha with ⟨H0, H1, H2, H3⟩
  isplitl [H0]; · iexact H0
  isplitl [H1]; · iexact H1
  isplitl [H2]; · iexact H2
  isplitl [H3]; · iexact H3
  iexact Hv

/-! ## The run and the frame -/

set_option backward.isDefEq.respectTransparency.types false in
/-- From any memory with zero counters every weakly fair execution of the program terminates, and every final state
    has each window's array at what the library computes from the proof data. -/
theorem run_main : θ_run defs (onTc (τ := τ) (main (F := F))) (s₀ m ρ) (Pipeline.FramePost cfgs (dats m) 0 (V m)) :=
  Pipeline.θ_run_frame_shared cfgs (dats m) (0 : Fin 1) cellOf_inj winFacts₀0 block_pos0 arr_whole0 stage_whole0 defs₀ Variants.none m ρ main
    (hbody := fun c => (body_obligation m c).loose) (howed := fun _ _ => rfl) (V := V m) (hmain := hmain m Variants.none)
    (hsplit := arrays_dealt m) (hΦ := fun _ _ => rfl)

/-- After the run the input array is as launched: an input window's array is never written. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).1 0).trans (((dats m 0 c).arrAt_in 0 rfl _).trans ((A_eq m c 0).trans (V_main_arg0 m c)))

/-- After the run the output array is what the write-backs of all the points leave. -/
theorem post_main_v0 (r : PUnit × MemSt nD τ sig (Elt F)) (h : Pipeline.FramePost cfgs (dats m) 0 (V m) r) (c : Dev nD) :
    r.2.mem ((c : Thread nD τ).loc main_v0) = (dats m 0 c).arrAt 4 cfg0.N :=
  (h c).1 4

/-- The frame: the program runs and its input array ends unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  (θ_run defs _ _).mono (fun r h c => kept_main_arg0 m r h c) (run_main m ρ)

/-- The run with the output array named. -/
theorem run_named : θ_run defs (onTc (τ := τ) (main (F := F))) ⟨m, fun _ => 0, ρ⟩ fun r => ∀ c : Dev nD,
      r.2.mem ((c.tc : Thread nD τ).loc main_v0) = (dats m 0 c).arrAt 4 cfg0.N
      ∧ r.2.mem ((c.tc : Thread nD τ).loc main_arg0) = m ((c.tc : Thread nD τ).loc main_arg0) :=
  (θ_run defs _ _).mono (fun r h c => ⟨post_main_v0 m r h c, kept_main_arg0 m r h c⟩) (run_main m ρ)

end Cert.Kernel.Hand

end
-- ==== Proof.BodyIdeal.lean ====
/-
  The body of the inverse-Haar kernel at one grid point, and the data the pipeline's frame run is stated over.

  The grid has 8 × 4 points (batch, block of 16 output channels). At a point the pipeline hands the body four
  [1, 16, 128, 128] blocks of the ONE input array — the same 16 channels of each of its four sub-bands — and one
  [1, 16, 256, 256] staging buffer for the output block. The body loads the four blocks whole, loads the output
  buffer (a value it never uses), and stores one value over the whole output buffer: the interleaved 2×2 blocks,
  a pure function of the four loads. So after the body the four input buffers hold what they held, and the
  output buffer holds that function of them, whatever it held before.
-/
import proofs.«171066_j38465727103452_2_alg».proof.Proof.Gen.KernelIdeal.Launch
import proofs.«171066_j38465727103452_2_alg».proof.Proof.Gen.KernelIdeal.Skeleton
import proofs.«171066_j38465727103452_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program up to its one region -/

/-- The core's buffers when the region is entered: as launched (the program is the region alone). -/
abbrev V (c : Dev nD) (b : Ref sig .tc) : Buf (Elt F) ((c : Thread nD τ).loc b) := m ((c : Thread nD τ).loc b)

theorem hmain (𝒱₀ : Variants) : Pipeline.HMain (Ix := Unit) (Name := ℕ) (U := UR sig nD τ) (Lvl := ℕ) cfgs 0 defs₀ 𝒱₀ m (main (F := F)) (V m) :=
  Pipeline.hmain_region cfgs 0 defs₀ 𝒱₀ m main fun c => (main_chain c).trans rfl

theorem V_main_arg0 (c : Dev nD) : V m c main_arg0 = m ((c : Thread nD τ).loc main_arg0) := rfl

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's staging buffer holds its block at every point, for any proof data whose array is the
    region-entry contents and whose body leaves the block in place: every block tiles the array and no point is idle. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The body's accesses and what it leaves in the output buffer -/

/-- The whole input block and the whole output block, as rectangles. -/
abbrev rIn : Rect S1x16x128x128 := Rect.unit (s := S1x16x128x128) ![0, 0, 0, 0] S1x16x128x128.size inb_S1x16x128x128_S1x16x128x128_0_0_0_0
abbrev rOut : Rect S1x16x256x256 := Rect.unit (s := S1x16x256x256) ![0, 0, 0, 0] S1x16x256x256.size inb_S1x16x256x256_S1x16x256x256_0_0_0_0

/-- The output buffer after the body, from the four input blocks: its one store, of the interleaved value. -/
def outBlock (x0 x1 x2 x3 : Vec F S1x16x128x128 .f32) : Vec F S1x16x256x256 .f32 :=
  View.canon [⟨rOut, k0_pay1 (View.ld x0 rIn) (View.ld x1 rIn) (View.ld x2 rIn) (View.ld x3 rIn)⟩]

/-- The one store covers the buffer. -/
theorem coverOut (p0 : Vec F S1x16x256x256 .f32) (y : S1x16x256x256.Idx) :
    ∃ pc ∈ ([⟨rOut, p0⟩] : List (View.Piece (Elt F) S1x16x256x256 .f32)), y ∈ pc.1.set :=
  View.cover_of_tiled [⟨rOut, p0⟩] S1x16x256x256.size (by rfl) y

/-! ## The body's triple -/

set_option maxHeartbeats 1000000 in
/-- The body on whole staging memrefs, the inputs' at contents `xW` and the output's at anything, runs to the
    continuation holding the inputs' as they were and the output's at `outBlock` of them. -/
theorem sound_kernel (c : Dev nD) (E : Set ℕ) (i : grid0.Coords)
    (arg2 : Memref sig .tc .vmem S1x16x128x128 .f32) (harg2 : arg2.IsWhole) (arg3 : Memref sig .tc .vmem S1x16x128x128 .f32) (harg3 : arg3.IsWhole)
    (arg4 : Memref sig .tc .vmem S1x16x128x128 .f32) (harg4 : arg4.IsWhole) (arg5 : Memref sig .tc .vmem S1x16x128x128 .f32) (harg5 : arg5.IsWhole)
    (arg6 : Memref sig .tc .vmem S1x16x256x256 .f32) (harg6 : arg6.IsWhole)
    (x0 x1 x2 x3 : Vec F S1x16x128x128 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ (∃ d, owns (c : Thread nD τ) arg6 fullShare d)
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare (outBlock x0 x1 x2 x3)) -∗ K ⟨⟩))
      ⊢ wp frame (wpE (defs₀ (F := F)) Variants.none c none) E (cc0_kernel i arg2 harg2 arg3 harg3 arg4 harg4 arg5 harg5 arg6 harg6) K := by
  simp only [cc0_kernel_eq_skeleton]; unfold cc0_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (coverOut _)

/-! ## The pipeline's proof data -/

/-- The proof data on core `c`: the arrays as the region finds them; after the body at point `t` each input's buffer
    at its block and the output's at `outBlock` of the four input blocks; the invariant the core's scoped buffers
    that are no staging buffer (the body names none); nothing owed; the ONE input array's full share dealt in
    quarters to the four windows on it. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outBlock (iblk m c 0 t) (iblk m c 1 t) (iblk m c 2 t) (iblk m c 3 t)
  Φ _ := Pipeline.scopedRest (Ix := Unit) (Name := ℕ) (U := UR sig nD τ) (Lvl := ℕ) (Val := Elt F) spec0 c
  q w := match w with
    | ⟨0, _⟩ => fullShare.left.left
    | ⟨1, _⟩ => fullShare.left.right
    | ⟨2, _⟩ => fullShare.right.left
    | ⟨3, _⟩ => fullShare.right.right
    | ⟨4, _⟩ => fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) :
    (dats m 0 c).after 4 t = outBlock (iblk m c 0 t) (iblk m c 1 t) (iblk m c 2 t) (iblk m c 3 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t))

/-- The body at any point: the inputs' buffers hold their blocks, so `sound_kernel` applies; the invariant and what
    the core owes pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).Φ t.succ = (dats m 0 c).Φ t.castSucc from rfl,
    show (dats m 0 c).owesAt () t.succ = (dats m 0 c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel c Set.univ (grid0.coords t) _ _ _ _ _ _ _ _ _ _ (iblk m c 0 t) (iblk m c 1 t) (iblk m c 2 t) (iblk m c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation (c : Dev nD) : BodyObligation (dats (F := F) m 0 c) (defs₀ (F := F)) Variants.none () Set.univ := fun t => by
  rw [bigSep_W0, bigSep_W0]
  exact sound_body m c t

end Cert.KernelIdeal.Hand

end
-- ==== Proof.RunIdeal.lean ====
/-
  The frame run of the inverse-Haar kernel: every weakly fair execution terminates, the input array ends as it was
  launched, and the output array ends at what the pipeline library computes from the body's stores.

  The four input windows read ONE array. The launch therefore deals that array's full share in four quarters, one to
  each window (each window only reads), and the output array's full share to the output window; the frame run for
  windows that share an array takes exactly that dealing as its one extra hypothesis.
-/
import proofs.«171066_j38465727103452_2_alg».proof.Proof.BodyIdeal
import proofs.«171066_j38465727103452_2_alg».proof.Proof.LibSharedFrame

set_option maxRecDepth 16384

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The buffers behind the five windows' arrays are two: the input and the output. -/
theorem arrRefs_eq : Finset.univ.image (Pipeline.arrRef spec0) = [main_arg0, main_v0].toFinset := by decide

/-- The dealing: the input buffer's full share in quarters to the four input windows, the output buffer's to the
    output window, each at the contents the region finds. -/
theorem arrays_dealt (c : Dev nD) :
    Pipeline.arrBufs (Ix := Unit) (Name := ℕ) (U := UR sig nD τ) (Lvl := ℕ) spec0 c (V m c)
      ⊢ (dats m 0 c).arrays ((dats m 0 c).arrAt · 0) := by
  unfold Pipeline.arrBufs Pipeline.Dat.arrays
  rw [bigSep_eq_bigSepL_of_eq [main_arg0, main_v0] arrRefs_eq (by decide), bigSep_W0]
  have hA0 : (dats m 0 c).arrAt 0 0 = V m c main_arg0 := A_eq m c 0
  have hA1 : (dats m 0 c).arrAt 1 0 = V m c main_arg0 := A_eq m c 1
  have hA2 : (dats m 0 c).arrAt 2 0 = V m c main_arg0 := A_eq m c 2
  have hA3 : (dats m 0 c).arrAt 3 0 = V m c main_arg0 := A_eq m c 3
  have hA4 : (dats m 0 c).arrAt 4 0 = V m c main_v0 := A_eq m c 4
  have hq0 : (dats m 0 c).share 0 = fullShare.left.left := by unfold Dat.share; rfl
  have hq1 : (dats m 0 c).share 1 = fullShare.left.right := by unfold Dat.share; rfl
  have hq2 : (dats m 0 c).share 2 = fullShare.right.left := by unfold Dat.share; rfl
  have hq3 : (dats m 0 c).share 3 = fullShare.right.right := by unfold Dat.share; rfl
  have hq4 : (dats m 0 c).share 4 = fullShare := by unfold Dat.share; rfl
  have hs0 : (cfg0.win 0).arr.view.set = Finset.univ := (arr_whole0 0).set_eq_univ
  have hs1 : (cfg0.win 1).arr.view.set = Finset.univ := (arr_whole0 1).set_eq_univ
  have hs2 : (cfg0.win 2).arr.view.set = Finset.univ := (arr_whole0 2).set_eq_univ
  have hs3 : (cfg0.win 3).arr.view.set = Finset.univ := (arr_whole0 3).set_eq_univ
  have hs4 : (cfg0.win 4).arr.view.set = Finset.univ := (arr_whole0 4).set_eq_univ
  simp only [bigSepL_cons_cons, bigSepL_singleton, hs0, hs1, hs2, hs3, hs4, hq0, hq1, hq2, hq3, hq4, hA0, hA1, hA2, hA3, hA4]
  show iprop((((c.tc : Thread nD τ).loc main_arg0) ↦{fullShare} V m c main_arg0) ∗ (((c.tc : Thread nD τ).loc main_v0) ↦{fullShare} V m c main_v0)) ⊢ _
  iintro ⟨Ha, Hv⟩
  icases (Pipeline.pointsTo_quarters (Ix := Unit) (Name := ℕ) (U := UR sig nD τ) (Lvl := ℕ) (ℓ := (c.tc : Thread nD τ).loc main_arg0) Finset.univ (V m c main_arg0)) $$ Ha with ⟨H0, H1, H2, H3⟩
  isplitl [H0]; · iexact H0
  isplitl [H1]; · iexact H1
  isplitl [H2]; · iexact H2
  isplitl [H3]; · iexact H3
  iexact Hv

/-! ## The run and the frame -/

set_option backward.isDefEq.respectTransparency.types false in
/-- From any memory with zero counters every weakly fair execution of the program terminates, and every final state
    has each window's array at what the library computes from the proof data. -/
theorem run_main : θ_run defs (onTc (τ := τ) (main (F := F))) (s₀ m ρ) (Pipeline.FramePost cfgs (dats m) 0 (V m)) :=
  Pipeline.θ_run_frame_shared cfgs (dats m) (0 : Fin 1) cellOf_inj winFacts₀0 block_pos0 arr_whole0 stage_whole0 defs₀ Variants.none m ρ main
    (hbody := fun c => (body_obligation m c).loose) (howed := fun _ _ => rfl) (V := V m) (hmain := hmain m Variants.none)
    (hsplit := arrays_dealt m) (hΦ := fun _ _ => rfl)

/-- After the run the input array is as launched: an input window's array is never written. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).1 0).trans (((dats m 0 c).arrAt_in 0 rfl _).trans ((A_eq m c 0).trans (V_main_arg0 m c)))

/-- After the run the output array is what the write-backs of all the points leave. -/
theorem post_main_v0 (r : PUnit × MemSt nD τ sig (Elt F)) (h : Pipeline.FramePost cfgs (dats m) 0 (V m) r) (c : Dev nD) :
    r.2.mem ((c : Thread nD τ).loc main_v0) = (dats m 0 c).arrAt 4 cfg0.N :=
  (h c).1 4

/-- The frame: the program runs and its input array ends unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  (θ_run defs _ _).mono (fun r h c => kept_main_arg0 m r h c) (run_main m ρ)

/-- The run with the output array named. -/
theorem run_named : θ_run defs (onTc (τ := τ) (main (F := F))) ⟨m, fun _ => 0, ρ⟩ fun r => ∀ c : Dev nD,
      r.2.mem ((c.tc : Thread nD τ).loc main_v0) = (dats m 0 c).arrAt 4 cfg0.N
      ∧ r.2.mem ((c.tc : Thread nD τ).loc main_arg0) = m ((c.tc : Thread nD τ).loc main_arg0) :=
  (θ_run defs _ _).mono (fun r h c => ⟨post_main_v0 m r h c, kept_main_arg0 m r h c⟩) (run_main m ρ)

end Cert.KernelIdeal.Hand

end
-- ==== Proof.HaarSpec.lean ====
/-
  The inverse Haar step as one function of the input array, entry by entry, on the extended reals.

  The input `x` has shape [8, 256, 128, 128]; its 256 channels are four sub-bands of 64 channels each
  (low-low, low-high, high-low, high-high). Output channel `c` at pixel (r, s) of the [8, 64, 256, 256]
  result depends on the four sub-band entries at channel `c` and position (r / 2, s / 2) only: with
  a = ll + lh, b = ll - lh, c' = hl + hh, d = hl - hh the 2×2 output block over that position is

      a + c'   a - c'
      b + d    b - d

  the row of the block chosen by the parity of r and the column by the parity of s. No law of the extended
  reals is needed to compare two programs that both compute these sums in this order, so nothing here asks
  the entries to be finite.
-/
import Idealize.ShloMosaic.PureOps.Ideal
import Idealize.ShloMosaic.Lib.ValueIdx

noncomputable section

namespace Cert.Haar

open Idealize.ShloMosaic Idealize.ShloMosaic.ValueIdx

/-- The input array's shape and the result's. -/
abbrev SX : Shape := ⟨4, ![8, 256, 128, 128]⟩
abbrev SO : Shape := ⟨4, ![8, 64, 256, 256]⟩

/-- The entry of the 2×2 block built from the four sub-band entries, at row parity `i` and column parity `j`
    (`0` the first row or column, anything else the second). -/
def pixel (ll lh hl hh : EReal) (i j : Nat) : EReal :=
  if i = 0 then (if j = 0 then (ll + lh) + (hl + hh) else (ll + lh) - (hl + hh))
  else (if j = 0 then (ll - lh) + (hl - hh) else (ll - lh) - (hl - hh))

/-- Channel `c` of sub-band `g` of the input at batch `b` and position (h, w): input channel 64 g + c. -/
def band (x : SX.Idx → EReal) (g : Fin 4) (b : Fin 8) (c : Fin 64) (h w : Fin 128) : EReal :=
  x (ix4 b (⟨64 * g.val + c.val, by omega⟩ : Fin 256) h w)

/-- The result at batch `b`, channel `c`, pixel (r, s). -/
def inverseEntry (x : SX.Idx → EReal) (b : Fin 8) (c : Fin 64) (r s : Fin 256) : EReal :=
  pixel (band x 0 b c ⟨r.val / 2, by omega⟩ ⟨s.val / 2, by omega⟩) (band x 1 b c ⟨r.val / 2, by omega⟩ ⟨s.val / 2, by omega⟩)
    (band x 2 b c ⟨r.val / 2, by omega⟩ ⟨s.val / 2, by omega⟩) (band x 3 b c ⟨r.val / 2, by omega⟩ ⟨s.val / 2, by omega⟩)
    (r.val % 2) (s.val % 2)

/-- The whole result as a function of the input array. -/
def inverse (x : SX.Idx → EReal) : SO.Idx → EReal := fun o =>
  inverseEntry x ⟨(o 0).val, (o 0).isLt⟩ ⟨(o 1).val, (o 1).isLt⟩ ⟨(o 2).val, (o 2).isLt⟩ ⟨(o 3).val, (o 3).isLt⟩

theorem inverse_ix4 (x : SX.Idx → EReal) (b : Fin 8) (c : Fin 64) (r s : Fin 256) :
    inverse x (ix4 b c r s) = inverseEntry x b c r s := rfl

end Cert.Haar

end
-- ==== Proof.KernelPayload.lean ====
/-
  The stored value of the kernel body, read at one entry, on the extended reals.

  The body takes four [1, 16, 128, 128] blocks ll, lh, hl, hh, forms a = ll + lh, b = ll - lh, c = hl + hh,
  d = hl - hh and the four pieces a + c, a - c, b + d, b - d, and lays them out as one [1, 16, 256, 256] block by
  two interleavings. Each interleaving is a reshape that appends or inserts an axis of extent one, a two-piece
  concatenation along that axis, and a reshape that merges the axis into its neighbour: after the first, column
  2 w + j holds piece j at column w; after the second, row 2 h + i holds piece i at row h. So the entry at
  channel c, row r, column s is the piece chosen by the parities of r and s, at (c, r / 2, s / 2).

  Every reshape keeps the row-major position of an entry, so each one is read at an index by comparing two
  positions written as sums of products; a concatenation is read in the piece its coordinate on the joined axis
  falls in. The sums and differences are taken entry by entry, so they are read at an index by definition.
-/
import proofs.«171066_j38465727103452_2_alg».proof.Proof.Gen.KernelIdeal.Skeleton
import proofs.«171066_j38465727103452_2_alg».proof.Proof.HaarSpec
import Idealize.ShloMosaic.Lib.Pipeline.Value
import Idealize.ShloMosaic.Lib.ValueIdx

noncomputable section

namespace Cert.KernelIdeal.KValue
open Idealize.ShloMosaic Idealize.ShloMosaic.ValueIdx Cert.KernelIdeal

section Layout
variable {α : Type}

/-- Dropping the leading unit axis of a [1, 16, 128, 128] array: entry (c, h, w) is entry (0, c, h, w). -/
private theorem dropLead_apply (v : S1x16x128x128.Idx → α) (hs : S1x16x128x128.ShapeCasts S16x128x128)
    (c : Fin 16) (h w : Fin 128) :
    shapeCast S16x128x128 v hs (ix3 c h w) = v (ix4 (0 : Fin 1) c h w) :=
  shapeCast_apply v hs (ix3 c h w) (ix4 (0 : Fin 1) c h w)
    (by rw [Shape.rowMajor_val_four, Shape.rowMajor_val_three]
        show ((0 * 16 + c.val) * 128 + h.val) * 128 + w.val = (c.val * 128 + h.val) * 128 + w.val
        omega)

/-- Adding a leading unit axis to a [16, 256, 256] array: entry (0, c, r, s) is entry (c, r, s). -/
private theorem addLead_apply (y : S16x256x256.Idx → α) (hs : S16x256x256.ShapeCasts S1x16x256x256)
    (c : Fin 16) (r s : Fin 256) :
    shapeCast S1x16x256x256 y hs (ix4 (0 : Fin 1) c r s) = y (ix3 c r s) :=
  shapeCast_apply y hs (ix4 (0 : Fin 1) c r s) (ix3 c r s)
    (by rw [Shape.rowMajor_val_four, Shape.rowMajor_val_three]
        show (c.val * 256 + r.val) * 256 + s.val = ((0 * 16 + c.val) * 256 + r.val) * 256 + s.val
        omega)

/-- Appending a unit axis to a [16, 128, 128] array: entry (c, h, w, 0) is entry (c, h, w). -/
private theorem addLast_apply (p : S16x128x128.Idx → α) (hs : S16x128x128.ShapeCasts S16x128x128x1)
    (c : Fin 16) (h w : Fin 128) :
    shapeCast S16x128x128x1 p hs (ix4 c h w (0 : Fin 1)) = p (ix3 c h w) :=
  shapeCast_apply p hs (ix4 c h w (0 : Fin 1)) (ix3 c h w)
    (by rw [Shape.rowMajor_val_four, Shape.rowMajor_val_three]
        show (c.val * 128 + h.val) * 128 + w.val = ((c.val * 128 + h.val) * 128 + w.val) * 1 + 0
        omega)

/-- Inserting a unit axis before the last axis of a [16, 128, 256] array: entry (c, h, 0, s) is entry (c, h, s). -/
private theorem addMid_apply (p : S16x128x256.Idx → α) (hs : S16x128x256.ShapeCasts S16x128x1x256)
    (c : Fin 16) (h : Fin 128) (s : Fin 256) :
    shapeCast S16x128x1x256 p hs (ix4 c h (0 : Fin 1) s) = p (ix3 c h s) :=
  shapeCast_apply p hs (ix4 c h (0 : Fin 1) s) (ix3 c h s)
    (by rw [Shape.rowMajor_val_four, Shape.rowMajor_val_three]
        show (c.val * 128 + h.val) * 256 + s.val = ((c.val * 128 + h.val) * 1 + 0) * 256 + s.val
        omega)

/-- The column interleaving of two [16, 128, 128] arrays into a [16, 128, 256] one: column s holds the first
    array's column s / 2 when s is even and the second's when s is odd. -/
private theorem colInterleave_apply (p q : S16x128x128.Idx → α)
    (h1 : S16x128x128.ShapeCasts S16x128x128x1)
    (hc : Shape.Concatenates [S16x128x128x1, S16x128x128x1] S16x128x128x2 3)
    (h2 : S16x128x128x2.ShapeCasts S16x128x256)
    (c : Fin 16) (h : Fin 128) (s : Fin 256) :
    shapeCast S16x128x256
        (concatenate S16x128x128x2 3
          [⟨S16x128x128x1, shapeCast S16x128x128x1 p h1⟩, ⟨S16x128x128x1, shapeCast S16x128x128x1 q h1⟩] hc) h2
        (ix3 c h s)
      = if s.val % 2 = 0 then p (ix3 c h (⟨s.val / 2, by omega⟩ : Fin 128))
        else q (ix3 c h (⟨s.val / 2, by omega⟩ : Fin 128)) := by
  -- merging the last two axes: entry (c, h, s) of the result is entry (c, h, s / 2, s % 2) of the concatenation
  refine (shapeCast_apply _ h2 (ix3 c h s)
    (ix4 c h (⟨s.val / 2, by omega⟩ : Fin 128) (⟨s.val % 2, by omega⟩ : Fin 2))
    (by rw [Shape.rowMajor_val_four, Shape.rowMajor_val_three]
        show ((c.val * 128 + h.val) * 128 + s.val / 2) * 2 + s.val % 2 = (c.val * 128 + h.val) * 256 + s.val
        omega)).trans ?_
  by_cases hs : s.val % 2 = 0
  · rw [if_pos hs]
    -- the last coordinate is 0: the first piece
    refine (concatenate_pair_apply_left (t := S16x128x128x2) (s₁ := S16x128x128x1) (s₂ := S16x128x128x1) (3 : Fin 4) _ _ hc
      (ix4 c h (⟨s.val / 2, by omega⟩ : Fin 128) (⟨s.val % 2, by omega⟩ : Fin 2)) rfl
      (ix4 c h (⟨s.val / 2, by omega⟩ : Fin 128) (0 : Fin 1))
      (fun b => match b with
        | ⟨0, _⟩ => rfl
        | ⟨1, _⟩ => rfl
        | ⟨2, _⟩ => rfl
        | ⟨3, _⟩ => by show 0 = s.val % 2; omega)).trans ?_
    exact addLast_apply p h1 c h _
  · rw [if_neg hs]
    -- the last coordinate is 1: the second piece, at 0
    refine (concatenate_pair_apply_right (t := S16x128x128x2) (s₁ := S16x128x128x1) (s₂ := S16x128x128x1) (3 : Fin 4) _ _ hc
      (ix4 c h (⟨s.val / 2, by omega⟩ : Fin 128) (⟨s.val % 2, by omega⟩ : Fin 2)) rfl rfl
      (ix4 c h (⟨s.val / 2, by omega⟩ : Fin 128) (0 : Fin 1))
      (fun b => match b with
        | ⟨0, _⟩ => fun _ => rfl
        | ⟨1, _⟩ => fun _ => rfl
        | ⟨2, _⟩ => fun _ => rfl
        | ⟨3, _⟩ => fun hne => absurd (Fin.ext rfl) hne)
      (by show 0 + 1 = s.val % 2; omega)).trans ?_
    exact addLast_apply q h1 c h _

/-- The row interleaving of two [16, 128, 256] arrays into a [16, 256, 256] one: row r holds the first array's
    row r / 2 when r is even and the second's when r is odd. -/
private theorem rowInterleave_apply (p q : S16x128x256.Idx → α)
    (h1 : S16x128x256.ShapeCasts S16x128x1x256)
    (hc : Shape.Concatenates [S16x128x1x256, S16x128x1x256] S16x128x2x256 2)
    (h2 : S16x128x2x256.ShapeCasts S16x256x256)
    (c : Fin 16) (r s : Fin 256) :
    shapeCast S16x256x256
        (concatenate S16x128x2x256 2
          [⟨S16x128x1x256, shapeCast S16x128x1x256 p h1⟩, ⟨S16x128x1x256, shapeCast S16x128x1x256 q h1⟩] hc) h2
        (ix3 c r s)
      = if r.val % 2 = 0 then p (ix3 c (⟨r.val / 2, by omega⟩ : Fin 128) s)
        else q (ix3 c (⟨r.val / 2, by omega⟩ : Fin 128) s) := by
  -- merging the two middle axes: entry (c, r, s) of the result is entry (c, r / 2, r % 2, s) of the concatenation
  refine (shapeCast_apply _ h2 (ix3 c r s)
    (ix4 c (⟨r.val / 2, by omega⟩ : Fin 128) (⟨r.val % 2, by omega⟩ : Fin 2) s)
    (by rw [Shape.rowMajor_val_four, Shape.rowMajor_val_three]
        show ((c.val * 128 + r.val / 2) * 2 + r.val % 2) * 256 + s.val = (c.val * 256 + r.val) * 256 + s.val
        omega)).trans ?_
  by_cases hr : r.val % 2 = 0
  · rw [if_pos hr]
    -- the third coordinate is 0: the first piece
    refine (concatenate_pair_apply_left (t := S16x128x2x256) (s₁ := S16x128x1x256) (s₂ := S16x128x1x256) (2 : Fin 4) _ _ hc
      (ix4 c (⟨r.val / 2, by omega⟩ : Fin 128) (⟨r.val % 2, by omega⟩ : Fin 2) s) rfl
      (ix4 c (⟨r.val / 2, by omega⟩ : Fin 128) (0 : Fin 1) s)
      (fun b => match b with
        | ⟨0, _⟩ => rfl
        | ⟨1, _⟩ => rfl
        | ⟨2, _⟩ => by show 0 = r.val % 2; omega
        | ⟨3, _⟩ => rfl)).trans ?_
    exact addMid_apply p h1 c _ s
  · rw [if_neg hr]
    -- the third coordinate is 1: the second piece, at 0
    refine (concatenate_pair_apply_right (t := S16x128x2x256) (s₁ := S16x128x1x256) (s₂ := S16x128x1x256) (2 : Fin 4) _ _ hc
      (ix4 c (⟨r.val / 2, by omega⟩ : Fin 128) (⟨r.val % 2, by omega⟩ : Fin 2) s) rfl rfl
      (ix4 c (⟨r.val / 2, by omega⟩ : Fin 128) (0 : Fin 1) s)
      (fun b => match b with
        | ⟨0, _⟩ => fun _ => rfl
        | ⟨1, _⟩ => fun _ => rfl
        | ⟨2, _⟩ => fun hne => absurd (Fin.ext rfl) hne
        | ⟨3, _⟩ => fun _ => rfl)
      (by show 0 + 1 = r.val % 2; omega)).trans ?_
    exact addMid_apply q h1 c _ s

end Layout

/-- The body's stored value at channel c, row r, column s: the entry of the 2×2 block over (r / 2, s / 2)
    chosen by the parities of r and s, built from the four blocks' entries there. -/
theorem pay_apply (v0 v2 v4 v6 : Vec Ideal S1x16x128x128 .f32) (c : Fin 16) (r s : Fin 256) :
    Cert.KernelIdeal.Gen.k0_pay1 (F := Ideal) v0 v2 v4 v6 (ix4 (0 : Fin 1) c r s)
      = Cert.Haar.pixel (v0 (ix4 (0 : Fin 1) c (⟨r.val / 2, by omega⟩ : Fin 128) (⟨s.val / 2, by omega⟩ : Fin 128)))
          (v2 (ix4 (0 : Fin 1) c (⟨r.val / 2, by omega⟩ : Fin 128) (⟨s.val / 2, by omega⟩ : Fin 128)))
          (v4 (ix4 (0 : Fin 1) c (⟨r.val / 2, by omega⟩ : Fin 128) (⟨s.val / 2, by omega⟩ : Fin 128)))
          (v6 (ix4 (0 : Fin 1) c (⟨r.val / 2, by omega⟩ : Fin 128) (⟨s.val / 2, by omega⟩ : Fin 128)))
          (r.val % 2) (s.val % 2) := by
  unfold Cert.KernelIdeal.Gen.k0_pay1 Cert.Haar.pixel
  refine (addLead_apply _ _ c r s).trans ?_
  refine (rowInterleave_apply _ _ _ _ _ c r s).trans ?_
  by_cases hr : r.val % 2 = 0
  · rw [if_pos hr, if_pos hr]
    refine (colInterleave_apply _ _ _ _ _ c _ s).trans ?_
    by_cases hs : s.val % 2 = 0
    · rw [if_pos hs, if_pos hs]
      simp only [addf_apply, subf_apply, dropLead_apply]
    · rw [if_neg hs, if_neg hs]
      simp only [addf_apply, subf_apply, dropLead_apply]
  · rw [if_neg hr, if_neg hr]
    refine (colInterleave_apply _ _ _ _ _ c _ s).trans ?_
    by_cases hs : s.val % 2 = 0
    · rw [if_pos hs, if_pos hs]
      simp only [addf_apply, subf_apply, dropLead_apply]
    · rw [if_neg hs, if_neg hs]
      simp only [addf_apply, subf_apply, dropLead_apply]

end Cert.KernelIdeal.KValue

end
-- ==== Proof.KernelFinal.lean ====
/-
  From blocks to the array: after the kernel's run the output array is the inverse Haar step of the input array.

  The grid has 8 × 4 points; the point with coordinates (b, q) writes back the [1, 16, 256, 256] block of the
  [8, 64, 256, 256] output at block index (b, q, 0, 0): batch b, output channels 16 q … 16 q + 15. What it writes is the
  interleaved value of four [1, 16, 128, 128] input blocks, sub-band g's at block index (b, 4 g + q, 0, 0) of the
  [8, 256, 128, 128] input: batch b, input channels 64 g + 16 q … 64 g + 16 q + 15, which are channels 16 q … 16 q + 15 of
  sub-band g. So entry (0, c, r, s) of the block written at (b, q) is the 2×2-block entry the specification puts at batch
  b, channel 16 q + c, pixel (r, s); the 32 blocks are written at every point and fill the output array, so the array the
  run leaves is the specification's, entry by entry.
-/
import proofs.«171066_j38465727103452_2_alg».proof.Proof.BodyIdeal
import proofs.«171066_j38465727103452_2_alg».proof.Proof.HaarSpec
import proofs.«171066_j38465727103452_2_alg».proof.Proof.KernelPayload
import Idealize.ShloMosaic.Lib.Pipeline.Value
import Idealize.ShloMosaic.Lib.ValueIdx

noncomputable section

namespace Cert.KernelIdeal.KFinal

open Cert.KernelIdeal Cert.KernelIdeal.Gen Cert.KernelIdeal.Hand Idealize.ShloMosaic Idealize.ShloMosaic.TcCoe Idealize.SL.Sem Idealize.ShloMosaic.ValueIdx

/-! ## The index maps, decided over the grid -/

theorem zeros4 : (![0, 0, 0, 0] : Fin 4 → Nat) = fun _ => 0 := funext fun a => by fin_cases a <;> rfl

/-- At every point: sub-band g's input block has the output block's batch index and channel-block index 4 g further
    on; every block starts at row and column 0; the output's batch index is at most 7 and its channel-block index at most 3. -/
theorem index_facts : ∀ t : Fin cfg0.N,
    (win0_0.index t (0 : Fin 4) = win0_4.index t (0 : Fin 4) ∧ win0_0.index t (1 : Fin 4) = win0_4.index t (1 : Fin 4) + 0
      ∧ win0_0.index t (2 : Fin 4) = 0 ∧ win0_0.index t (3 : Fin 4) = 0)
    ∧ (win0_1.index t (0 : Fin 4) = win0_4.index t (0 : Fin 4) ∧ win0_1.index t (1 : Fin 4) = win0_4.index t (1 : Fin 4) + 4
      ∧ win0_1.index t (2 : Fin 4) = 0 ∧ win0_1.index t (3 : Fin 4) = 0)
    ∧ (win0_2.index t (0 : Fin 4) = win0_4.index t (0 : Fin 4) ∧ win0_2.index t (1 : Fin 4) = win0_4.index t (1 : Fin 4) + 8
      ∧ win0_2.index t (2 : Fin 4) = 0 ∧ win0_2.index t (3 : Fin 4) = 0)
    ∧ (win0_3.index t (0 : Fin 4) = win0_4.index t (0 : Fin 4) ∧ win0_3.index t (1 : Fin 4) = win0_4.index t (1 : Fin 4) + 12
      ∧ win0_3.index t (2 : Fin 4) = 0 ∧ win0_3.index t (3 : Fin 4) = 0)
    ∧ win0_4.index t (0 : Fin 4) ≤ 7 ∧ win0_4.index t (1 : Fin 4) ≤ 3
      ∧ win0_4.index t (2 : Fin 4) = 0 ∧ win0_4.index t (3 : Fin 4) = 0 :=
  (by decide +kernel : ∀ t : Fin grid0.N, _)

/-- Every (batch, channel block) is some point's. -/
theorem index_onto : ∀ (q0 : Fin 8) (q1 : Fin 4), ∃ t : Fin cfg0.N, win0_4.index t = ![q0.val, q1.val, 0, 0] :=
  (by decide +kernel : ∀ (q0 : Fin 8) (q1 : Fin 4), ∃ t : Fin grid0.N, win0_4.index t = ![q0.val, q1.val, 0, 0])

/-! ## One point: the block written is the specification's block -/

/-- An index of an output block by its coordinates. -/
theorem exists_ix4_out (j : S1x16x256x256.Idx) : ∃ (cc : Fin 16) (r s : Fin 256), j = ix4 (0 : Fin 1) cc r s :=
  ⟨j 1, j 2, j 3, funext fun a => match a with
    | ⟨0, _⟩ => Subsingleton.elim (α := Fin 1) _ _ | ⟨1, _⟩ => rfl | ⟨2, _⟩ => rfl | ⟨3, _⟩ => rfl⟩

/-- The interleaved value of four blocks that are channels 16 q … 16 q + 15 of the four sub-bands of `X` at batch b
    is, entry by entry, the specification of `X` at batch b and channels 16 q … 16 q + 15. -/
theorem point_eq (X : Cert.Haar.SX.Idx → EReal) (x0 x1 x2 x3 : Vec Ideal S1x16x128x128 .f32) (b : Fin 8) (q : Fin 4)
    (h0 : ∀ (cc : Fin 16) (h w : Fin 128), x0 (ix4 (0 : Fin 1) cc h w) = Cert.Haar.band X 0 b ⟨16 * q.val + cc.val, by omega⟩ h w)
    (h1 : ∀ (cc : Fin 16) (h w : Fin 128), x1 (ix4 (0 : Fin 1) cc h w) = Cert.Haar.band X 1 b ⟨16 * q.val + cc.val, by omega⟩ h w)
    (h2 : ∀ (cc : Fin 16) (h w : Fin 128), x2 (ix4 (0 : Fin 1) cc h w) = Cert.Haar.band X 2 b ⟨16 * q.val + cc.val, by omega⟩ h w)
    (h3 : ∀ (cc : Fin 16) (h w : Fin 128), x3 (ix4 (0 : Fin 1) cc h w) = Cert.Haar.band X 3 b ⟨16 * q.val + cc.val, by omega⟩ h w)
    (cc : Fin 16) (r s : Fin 256) :
    k0_pay1 (F := Ideal) x0 x1 x2 x3 (ix4 (0 : Fin 1) cc r s)
      = Cert.Haar.inverse X (ix4 b (⟨16 * q.val + cc.val, by omega⟩ : Fin 64) r s) := by
  refine (KValue.pay_apply x0 x1 x2 x3 cc r s).trans ?_
  rw [h0, h1, h2, h3, Cert.Haar.inverse_ix4]
  rfl

/-! ## The input blocks, read off the input array -/

variable (m : (ℓ : Loc nD τ sig) → Buf (Elt Ideal) ℓ)

/-- Sub-band 0's block at the point of batch b and channel block q: channels 16 q … 16 q + 15 of sub-band 0 at batch b. -/
theorem iblk0_apply (c : Dev nD) (t : Fin cfg0.N) (b : Fin 8) (q : Fin 4)
    (hb : win0_4.index t (0 : Fin 4) = b.val) (hq : win0_4.index t (1 : Fin 4) = q.val) (cc : Fin 16) (h w : Fin 128) :
    iblk m c 0 t (ix4 (0 : Fin 1) cc h w) = Cert.Haar.band (V m c main_arg0) 0 b ⟨16 * q.val + cc.val, by omega⟩ h w := by
  obtain ⟨ ⟨e0, e1, e2, e3⟩, -⟩ := index_facts t
  show V m c main_arg0 (((cfg0.win 0).blk t).view.emb (ix4 (0 : Fin 1) cc h w))
    = V m c main_arg0 (ix4 b (⟨64 * (0 : Fin 4).val + (16 * q.val + cc.val), by omega⟩ : Fin 256) h w)
  refine congrArg (V m c main_arg0) ?_
  funext a; apply Fin.ext
  match a with
  | ⟨0, _⟩ => show win0_0.index t (0 : Fin 4) * 1 + 1 * (0 : Fin 1).val = b.val; omega
  | ⟨1, _⟩ => show win0_0.index t (1 : Fin 4) * 16 + 1 * cc.val = 64 * 0 + (16 * q.val + cc.val); omega
  | ⟨2, _⟩ => show win0_0.index t (2 : Fin 4) * 128 + 1 * h.val = h.val; omega
  | ⟨3, _⟩ => show win0_0.index t (3 : Fin 4) * 128 + 1 * w.val = w.val; omega

/-- Sub-band 1's block at the point of batch b and channel block q: channels 16 q … 16 q + 15 of sub-band 1 at batch b. -/
theorem iblk1_apply (c : Dev nD) (t : Fin cfg0.N) (b : Fin 8) (q : Fin 4)
    (hb : win0_4.index t (0 : Fin 4) = b.val) (hq : win0_4.index t (1 : Fin 4) = q.val) (cc : Fin 16) (h w : Fin 128) :
    iblk m c 1 t (ix4 (0 : Fin 1) cc h w) = Cert.Haar.band (V m c main_arg0) 1 b ⟨16 * q.val + cc.val, by omega⟩ h w := by
  obtain ⟨-, ⟨e0, e1, e2, e3⟩, -⟩ := index_facts t
  show V m c main_arg0 (((cfg0.win 1).blk t).view.emb (ix4 (0 : Fin 1) cc h w))
    = V m c main_arg0 (ix4 b (⟨64 * (1 : Fin 4).val + (16 * q.val + cc.val), by omega⟩ : Fin 256) h w)
  refine congrArg (V m c main_arg0) ?_
  funext a; apply Fin.ext
  match a with
  | ⟨0, _⟩ => show win0_1.index t (0 : Fin 4) * 1 + 1 * (0 : Fin 1).val = b.val; omega
  | ⟨1, _⟩ => show win0_1.index t (1 : Fin 4) * 16 + 1 * cc.val = 64 * 1 + (16 * q.val + cc.val); omega
  | ⟨2, _⟩ => show win0_1.index t (2 : Fin 4) * 128 + 1 * h.val = h.val; omega
  | ⟨3, _⟩ => show win0_1.index t (3 : Fin 4) * 128 + 1 * w.val = w.val; omega

/-- Sub-band 2's block at the point of batch b and channel block q: channels 16 q … 16 q + 15 of sub-band 2 at batch b. -/
theorem iblk2_apply (c : Dev nD) (t : Fin cfg0.N) (b : Fin 8) (q : Fin 4)
    (hb : win0_4.index t (0 : Fin 4) = b.val) (hq : win0_4.index t (1 : Fin 4) = q.val) (cc : Fin 16) (h w : Fin 128) :
    iblk m c 2 t (ix4 (0 : Fin 1) cc h w) = Cert.Haar.band (V m c main_arg0) 2 b ⟨16 * q.val + cc.val, by omega⟩ h w := by
  obtain ⟨-,-, ⟨e0, e1, e2, e3⟩, -⟩ := index_facts t
  show V m c main_arg0 (((cfg0.win 2).blk t).view.emb (ix4 (0 : Fin 1) cc h w))
    = V m c main_arg0 (ix4 b (⟨64 * (2 : Fin 4).val + (16 * q.val + cc.val), by omega⟩ : Fin 256) h w)
  refine congrArg (V m c main_arg0) ?_
  funext a; apply Fin.ext
  match a with
  | ⟨0, _⟩ => show win0_2.index t (0 : Fin 4) * 1 + 1 * (0 : Fin 1).val = b.val; omega
  | ⟨1, _⟩ => show win0_2.index t (1 : Fin 4) * 16 + 1 * cc.val = 64 * 2 + (16 * q.val + cc.val); omega
  | ⟨2, _⟩ => show win0_2.index t (2 : Fin 4) * 128 + 1 * h.val = h.val; omega
  | ⟨3, _⟩ => show win0_2.index t (3 : Fin 4) * 128 + 1 * w.val = w.val; omega

/-- Sub-band 3's block at the point of batch b and channel block q: channels 16 q … 16 q + 15 of sub-band 3 at batch b. -/
theorem iblk3_apply (c : Dev nD) (t : Fin cfg0.N) (b : Fin 8) (q : Fin 4)
    (hb : win0_4.index t (0 : Fin 4) = b.val) (hq : win0_4.index t (1 : Fin 4) = q.val) (cc : Fin 16) (h w : Fin 128) :
    iblk m c 3 t (ix4 (0 : Fin 1) cc h w) = Cert.Haar.band (V m c main_arg0) 3 b ⟨16 * q.val + cc.val, by omega⟩ h w := by
  obtain ⟨-,-,-, ⟨e0, e1, e2, e3⟩, -⟩ := index_facts t
  show V m c main_arg0 (((cfg0.win 3).blk t).view.emb (ix4 (0 : Fin 1) cc h w))
    = V m c main_arg0 (ix4 b (⟨64 * (3 : Fin 4).val + (16 * q.val + cc.val), by omega⟩ : Fin 256) h w)
  refine congrArg (V m c main_arg0) ?_
  funext a; apply Fin.ext
  match a with
  | ⟨0, _⟩ => show win0_3.index t (0 : Fin 4) * 1 + 1 * (0 : Fin 1).val = b.val; omega
  | ⟨1, _⟩ => show win0_3.index t (1 : Fin 4) * 16 + 1 * cc.val = 64 * 3 + (16 * q.val + cc.val); omega
  | ⟨2, _⟩ => show win0_3.index t (2 : Fin 4) * 128 + 1 * h.val = h.val; omega
  | ⟨3, _⟩ => show win0_3.index t (3 : Fin 4) * 128 + 1 * w.val = w.val; omega

/-! ## What a point writes back -/

/-- The point of batch b and channel block q writes back that block of the specification of the input array. -/
theorem flushedOut_eq (c : Dev nD) (t : Fin cfg0.N) :
    (dats m 0 c).flushed 4 t = ((cfg0.win 4).blk t).view.read (Elt Ideal) (Cert.Haar.inverse (V m c main_arg0)) := by
  show (cfg0.win 4).cut (grid0.coords t) ((dats m 0 c).after 4 t) = _
  rw [after0_4]
  unfold outBlock
  rw [View.canon_unit_zero zeros4]
  simp only [View.ld_unit_zero (S := S1x16x128x128) zeros4]
  obtain ⟨-, -, -, -, f0, f1, f2, f3⟩ := index_facts t
  have hb : win0_4.index t (0 : Fin 4) = (⟨win0_4.index t (0 : Fin 4), by omega⟩ : Fin 8).val := rfl
  have hq : win0_4.index t (1 : Fin 4) = (⟨win0_4.index t (1 : Fin 4), by omega⟩ : Fin 4).val := rfl
  funext j
  obtain ⟨cc, r, s, rfl⟩ := exists_ix4_out j
  refine (point_eq (V m c main_arg0) (iblk m c 0 t) (iblk m c 1 t) (iblk m c 2 t) (iblk m c 3 t)
    ⟨win0_4.index t (0 : Fin 4), by omega⟩ ⟨win0_4.index t (1 : Fin 4), by omega⟩
    (iblk0_apply m c t _ _ hb hq) (iblk1_apply m c t _ _ hb hq) (iblk2_apply m c t _ _ hb hq) (iblk3_apply m c t _ _ hb hq) cc r s).trans ?_
  show Cert.Haar.inverse (V m c main_arg0) _ = Cert.Haar.inverse (V m c main_arg0) (((cfg0.win 4).blk t).view.emb (ix4 (0 : Fin 1) cc r s))
  refine congrArg (Cert.Haar.inverse (V m c main_arg0)) ?_
  funext a; apply Fin.ext
  match a with
  | ⟨0, _⟩ => show win0_4.index t (0 : Fin 4) = win0_4.index t (0 : Fin 4) * 1 + 1 * (0 : Fin 1).val; omega
  | ⟨1, _⟩ => show 16 * win0_4.index t (1 : Fin 4) + cc.val = win0_4.index t (1 : Fin 4) * 16 + 1 * cc.val; omega
  | ⟨2, _⟩ => show r.val = win0_4.index t (2 : Fin 4) * 256 + 1 * r.val; omega
  | ⟨3, _⟩ => show s.val = win0_4.index t (3 : Fin 4) * 256 + 1 * s.val; omega

/-! ## The blocks fill the output array -/

/-- An index of the output array is in point t's block iff each coordinate is in the block's range on its axis. -/
theorem mem_blk (t : Fin cfg0.N) (i : S8x64x256x256.Idx) :
    i ∈ ((cfg0.win 4).blk t).view.set ↔ ∀ a : Fin 4, win0_4.index t a * S1x16x256x256.size a ≤ (i a).val
      ∧ (i a).val < win0_4.index t a * S1x16x256x256.size a + S1x16x256x256.size a := by
  show i ∈ ((View.whole main_v0).slice (win0_4.rect t)).set ↔ _
  rw [View.set_slice_whole, Rect.mem_set_unit]
  exact Iff.rfl

/-- Every index of the output array is in the block some point writes back: the point of its batch and of its
    channel's block of 16. -/
theorem cover (i : S8x64x256x256.Idx) :
    ∃ t : Fin cfg0.N, (cfg0.win 4).flush t = true ∧ i ∈ ((cfg0.win 4).blk t).view.set := by
  have hi0 : (i 0).val < 8 := (i 0).isLt
  have hi1 : (i 1).val < 64 := (i 1).isLt
  have hi2 : (i 2).val < 256 := (i 2).isLt
  have hi3 : (i 3).val < 256 := (i 3).isLt
  obtain ⟨t, ht⟩ := index_onto ⟨(i 0).val, hi0⟩ ⟨(i 1).val / 16, by omega⟩
  have q0 : win0_4.index t (0 : Fin 4) = (i 0).val := congrFun ht 0
  have q1 : win0_4.index t (1 : Fin 4) = (i 1).val / 16 := congrFun ht 1
  have q2 : win0_4.index t (2 : Fin 4) = 0 := congrFun ht 2
  have q3 : win0_4.index t (3 : Fin 4) = 0 := congrFun ht 3
  refine ⟨t, flush0_4 t, ?_⟩
  rw [mem_blk]
  intro a
  match a with
  | ⟨0, _⟩ => show win0_4.index t (0 : Fin 4) * 1 ≤ (i 0).val ∧ (i 0).val < win0_4.index t (0 : Fin 4) * 1 + 1; omega
  | ⟨1, _⟩ => show win0_4.index t (1 : Fin 4) * 16 ≤ (i 1).val ∧ (i 1).val < win0_4.index t (1 : Fin 4) * 16 + 16; omega
  | ⟨2, _⟩ => show win0_4.index t (2 : Fin 4) * 256 ≤ (i 2).val ∧ (i 2).val < win0_4.index t (2 : Fin 4) * 256 + 256; omega
  | ⟨3, _⟩ => show win0_4.index t (3 : Fin 4) * 256 ≤ (i 3).val ∧ (i 3).val < win0_4.index t (3 : Fin 4) * 256 + 256; omega

/-! ## The array after the run -/

/-- After the last write-back the output array is the inverse Haar step of the input array as launched. -/
theorem final (m : (ℓ : Loc nD τ sig) → Buf (Elt Ideal) ℓ) (c : Dev nD) :
    (Hand.dats (F := Ideal) m 0 c).arrAt 4 cfg0.N = Cert.Haar.inverse (m ((c : Thread nD τ).loc main_arg0)) :=
  (dats m 0 c).arrAt_eq_of_cover 4 (Cert.Haar.inverse (V m c main_arg0)) (fun t _ => flushedOut_eq m c t) cover

end Cert.KernelIdeal.KFinal

end
-- ==== Proof.RefValue.lean ====
/-
  The reference program's result, entry by entry, is the inverse Haar step of the specification.

  The program cuts the input's 256 channels into the four sub-bands, forms the four sums and differences
  a + c', a - c', b + d, b - d (a = ll + lh, b = ll - lh, c' = hl + hh, d = hl - hh), and interleaves them: the two
  entries of a block's row are joined on a new last axis, the two rows on a new axis in front of it, the row axis
  is moved next to the height, and the array [8, 64, 128, 2, 128, 2] is read row-major as [8, 64, 256, 256]. So the
  entry at pixel (r, s) is the block entry at position (r / 2, s / 2), row r % 2, column s % 2.
-/
import proofs.«171066_j38465727103452_2_alg».proof.Proof.Gen.ReferenceIdeal.Read
import proofs.«171066_j38465727103452_2_alg».proof.Proof.HaarSpec
import Idealize.ShloMosaic.Lib.ValueIdxRank6

noncomputable section

namespace Cert.ReferenceIdeal.RefValue

open Cert.ReferenceIdeal Cert.ReferenceIdeal.Gen Cert.ReferenceIdeal.Read Idealize.ShloMosaic Idealize.ShloMosaic.TcCoe
  Idealize.SL.Sem Idealize.ShloMosaic.StableHlo Idealize.ShloMosaic.ValueIdx

/-- The input arrays. -/
abbrev X : Type := (⟨S8x256x128x128, .f32⟩ : BufTy).Contents (Elt Ideal)

/-! ## The reshape and the transpose -/

/-- Pixel (r, s) of the result is entry (r / 2, r % 2, s / 2, s % 2) of the rank-6 array: both have the same
    row-major position. -/
theorem v22_at (x : X) (b : Fin 8) (c : Fin 64) (r s : Fin 256) :
    val_main_v22 (F := Ideal) x (ix4 b c r s)
      = val_main_v21 (F := Ideal) x (ix6 b c (⟨r.val / 2, by omega⟩ : Fin 128) (⟨r.val % 2, by omega⟩ : Fin 2)
          (⟨s.val / 2, by omega⟩ : Fin 128) (⟨s.val % 2, by omega⟩ : Fin 2)) := by
  unfold val_main_v22
  generalize val_main_v21 (F := Ideal) x = y
  refine shapeCast_apply y shapeCasts_S8x64x128x2x128x2_S8x64x256x256 (ix4 b c r s) _ ?_
  rw [Shape.rowMajor_val_six, Shape.rowMajor_val_four]
  show ((((b.val * 64 + c.val) * 128 + r.val / 2) * 2 + r.val % 2) * 128 + s.val / 2) * 2 + s.val % 2
    = ((b.val * 64 + c.val) * 256 + r.val) * 256 + s.val
  omega

/-- The transpose exchanges the width with the row of the block. -/
theorem v21_at (x : X) (b : Fin 8) (c : Fin 64) (h : Fin 128) (i : Fin 2) (w : Fin 128) (j : Fin 2) :
    val_main_v21 (F := Ideal) x (ix6 b c h i w j) = val_main_v20 (F := Ideal) x (ix6 b c h w i j) :=
  (val_main_v21_apply x _).trans (congrArg _ (funext fun a => match a with
    | ⟨0, _⟩ => rfl | ⟨1, _⟩ => rfl | ⟨2, _⟩ => rfl | ⟨3, _⟩ => rfl | ⟨4, _⟩ => rfl | ⟨5, _⟩ => rfl))

/-! ## The two rows of a block (the join on axis 4 of the rank-6 array) -/

/-- The first row of a block is the first operand of the join … -/
theorem v20_left (x : X) (b : Fin 8) (c : Fin 64) (h w : Fin 128) (i j : Fin 2) (hi : i.val = 0) :
    val_main_v20 (F := Ideal) x (ix6 b c h w i j) = val_main_v18 (F := Ideal) x (ix6 b c h w (0 : Fin 1) j) := by
  unfold val_main_v20
  generalize val_main_v18 (F := Ideal) x = y₁
  generalize val_main_v19 (F := Ideal) x = y₂
  exact concatenate_pair_apply_left (t := S8x64x128x128x2x2) (s₁ := S8x64x128x128x1x2) (s₂ := S8x64x128x128x1x2) 4 y₁ y₂
    concatenates_S8x64x128x128x1x2_S8x64x128x128x1x2_S8x64x128x128x2x2_d4 (ix6 b c h w i j) rfl
    (ix6 b c h w (0 : Fin 1) j) (fun a => match a with
      | ⟨0, _⟩ => rfl | ⟨1, _⟩ => rfl | ⟨2, _⟩ => rfl | ⟨3, _⟩ => rfl | ⟨4, _⟩ => hi.symm | ⟨5, _⟩ => rfl)

/-- … and the second row the second. -/
theorem v20_right (x : X) (b : Fin 8) (c : Fin 64) (h w : Fin 128) (i j : Fin 2) (hi : i.val = 1) :
    val_main_v20 (F := Ideal) x (ix6 b c h w i j) = val_main_v19 (F := Ideal) x (ix6 b c h w (0 : Fin 1) j) := by
  unfold val_main_v20
  generalize val_main_v18 (F := Ideal) x = y₁
  generalize val_main_v19 (F := Ideal) x = y₂
  exact concatenate_pair_apply_right (t := S8x64x128x128x2x2) (s₁ := S8x64x128x128x1x2) (s₂ := S8x64x128x128x1x2) 4 y₁ y₂
    concatenates_S8x64x128x128x1x2_S8x64x128x128x1x2_S8x64x128x128x2x2_d4 (ix6 b c h w i j) rfl rfl
    (ix6 b c h w (0 : Fin 1) j) (fun a ha => match a with
      | ⟨0, _⟩ => rfl | ⟨1, _⟩ => rfl | ⟨2, _⟩ => rfl | ⟨3, _⟩ => rfl | ⟨4, _⟩ => absurd rfl ha | ⟨5, _⟩ => rfl)
    (by show 0 + 1 = i.val; omega)

/-- A row of a block, with its unit axis, is the row. -/
theorem v18_at (x : X) (b : Fin 8) (c : Fin 64) (h w : Fin 128) (u : Fin 1) (j : Fin 2) :
    val_main_v18 (F := Ideal) x (ix6 b c h w u j) = val_main_v14 (F := Ideal) x (ix5 b c h w j) :=
  (val_main_v18_apply x _).trans (congrArg _ (funext fun a => match a with
    | ⟨0, _⟩ => rfl | ⟨1, _⟩ => rfl | ⟨2, _⟩ => rfl | ⟨3, _⟩ => rfl | ⟨4, _⟩ => rfl))
theorem v19_at (x : X) (b : Fin 8) (c : Fin 64) (h w : Fin 128) (u : Fin 1) (j : Fin 2) :
    val_main_v19 (F := Ideal) x (ix6 b c h w u j) = val_main_v17 (F := Ideal) x (ix5 b c h w j) :=
  (val_main_v19_apply x _).trans (congrArg _ (funext fun a => match a with
    | ⟨0, _⟩ => rfl | ⟨1, _⟩ => rfl | ⟨2, _⟩ => rfl | ⟨3, _⟩ => rfl | ⟨4, _⟩ => rfl))

/-! ## The two entries of a row (the join on the last axis of the rank-5 arrays) -/

theorem v14_left (x : X) (b : Fin 8) (c : Fin 64) (h w : Fin 128) (j : Fin 2) (hj : j.val = 0) :
    val_main_v14 (F := Ideal) x (ix5 b c h w j) = val_main_v12 (F := Ideal) x (ix5 b c h w (0 : Fin 1)) := by
  unfold val_main_v14
  generalize val_main_v12 (F := Ideal) x = y₁
  generalize val_main_v13 (F := Ideal) x = y₂
  exact concatenate_pair_apply_left (t := S8x64x128x128x2) (s₁ := S8x64x128x128x1) (s₂ := S8x64x128x128x1) 4 y₁ y₂
    concatenates_S8x64x128x128x1_S8x64x128x128x1_S8x64x128x128x2_d4 (ix5 b c h w j) rfl
    (ix5 b c h w (0 : Fin 1)) (fun a => match a with
      | ⟨0, _⟩ => rfl | ⟨1, _⟩ => rfl | ⟨2, _⟩ => rfl | ⟨3, _⟩ => rfl | ⟨4, _⟩ => hj.symm)

theorem v14_right (x : X) (b : Fin 8) (c : Fin 64) (h w : Fin 128) (j : Fin 2) (hj : j.val = 1) :
    val_main_v14 (F := Ideal) x (ix5 b c h w j) = val_main_v13 (F := Ideal) x (ix5 b c h w (0 : Fin 1)) := by
  unfold val_main_v14
  generalize val_main_v12 (F := Ideal) x = y₁
  generalize val_main_v13 (F := Ideal) x = y₂
  exact concatenate_pair_apply_right (t := S8x64x128x128x2) (s₁ := S8x64x128x128x1) (s₂ := S8x64x128x128x1) 4 y₁ y₂
    concatenates_S8x64x128x128x1_S8x64x128x128x1_S8x64x128x128x2_d4 (ix5 b c h w j) rfl rfl
    (ix5 b c h w (0 : Fin 1)) (fun a ha => match a with
      | ⟨0, _⟩ => rfl | ⟨1, _⟩ => rfl | ⟨2, _⟩ => rfl | ⟨3, _⟩ => rfl | ⟨4, _⟩ => absurd rfl ha)
    (by show 0 + 1 = j.val; omega)

theorem v17_left (x : X) (b : Fin 8) (c : Fin 64) (h w : Fin 128) (j : Fin 2) (hj : j.val = 0) :
    val_main_v17 (F := Ideal) x (ix5 b c h w j) = val_main_v15 (F := Ideal) x (ix5 b c h w (0 : Fin 1)) := by
  unfold val_main_v17
  generalize val_main_v15 (F := Ideal) x = y₁
  generalize val_main_v16 (F := Ideal) x = y₂
  exact concatenate_pair_apply_left (t := S8x64x128x128x2) (s₁ := S8x64x128x128x1) (s₂ := S8x64x128x128x1) 4 y₁ y₂
    concatenates_S8x64x128x128x1_S8x64x128x128x1_S8x64x128x128x2_d4 (ix5 b c h w j) rfl
    (ix5 b c h w (0 : Fin 1)) (fun a => match a with
      | ⟨0, _⟩ => rfl | ⟨1, _⟩ => rfl | ⟨2, _⟩ => rfl | ⟨3, _⟩ => rfl | ⟨4, _⟩ => hj.symm)

theorem v17_right (x : X) (b : Fin 8) (c : Fin 64) (h w : Fin 128) (j : Fin 2) (hj : j.val = 1) :
    val_main_v17 (F := Ideal) x (ix5 b c h w j) = val_main_v16 (F := Ideal) x (ix5 b c h w (0 : Fin 1)) := by
  unfold val_main_v17
  generalize val_main_v15 (F := Ideal) x = y₁
  generalize val_main_v16 (F := Ideal) x = y₂
  exact concatenate_pair_apply_right (t := S8x64x128x128x2) (s₁ := S8x64x128x128x1) (s₂ := S8x64x128x128x1) 4 y₁ y₂
    concatenates_S8x64x128x128x1_S8x64x128x128x1_S8x64x128x128x2_d4 (ix5 b c h w j) rfl rfl
    (ix5 b c h w (0 : Fin 1)) (fun a ha => match a with
      | ⟨0, _⟩ => rfl | ⟨1, _⟩ => rfl | ⟨2, _⟩ => rfl | ⟨3, _⟩ => rfl | ⟨4, _⟩ => absurd rfl ha)
    (by show 0 + 1 = j.val; omega)

/-! ## The four sub-bands and the eight sums and differences -/

/-- The slice at channel offset 64 g is sub-band g. -/
theorem v0_at (x : X) (b : Fin 8) (c : Fin 64) (h w : Fin 128) :
    val_main_v0 (F := Ideal) x (ix4 b c h w) = Cert.Haar.band x 0 b c h w :=
  (val_main_v0_apply x _).trans (congrArg x (funext fun a => match a with
    | ⟨0, _⟩ => rfl | ⟨1, _⟩ => Fin.ext (by show c.val = 64 * 0 + c.val; omega) | ⟨2, _⟩ => rfl | ⟨3, _⟩ => rfl))
theorem v1_at (x : X) (b : Fin 8) (c : Fin 64) (h w : Fin 128) :
    val_main_v1 (F := Ideal) x (ix4 b c h w) = Cert.Haar.band x 1 b c h w :=
  (val_main_v1_apply x _).trans (congrArg x (funext fun a => match a with
    | ⟨0, _⟩ => rfl | ⟨1, _⟩ => Fin.ext (by show 64 + c.val = 64 * 1 + c.val; omega) | ⟨2, _⟩ => rfl | ⟨3, _⟩ => rfl))
theorem v2_at (x : X) (b : Fin 8) (c : Fin 64) (h w : Fin 128) :
    val_main_v2 (F := Ideal) x (ix4 b c h w) = Cert.Haar.band x 2 b c h w :=
  (val_main_v2_apply x _).trans (congrArg x (funext fun a => match a with
    | ⟨0, _⟩ => rfl | ⟨1, _⟩ => Fin.ext (by show 128 + c.val = 64 * 2 + c.val; omega) | ⟨2, _⟩ => rfl | ⟨3, _⟩ => rfl))
theorem v3_at (x : X) (b : Fin 8) (c : Fin 64) (h w : Fin 128) :
    val_main_v3 (F := Ideal) x (ix4 b c h w) = Cert.Haar.band x 3 b c h w :=
  (val_main_v3_apply x _).trans (congrArg x (funext fun a => match a with
    | ⟨0, _⟩ => rfl | ⟨1, _⟩ => Fin.ext (by show 192 + c.val = 64 * 3 + c.val; omega) | ⟨2, _⟩ => rfl | ⟨3, _⟩ => rfl))

/-- a + c', with a = ll + lh and c' = hl + hh. -/
theorem v8_at (x : X) (b : Fin 8) (c : Fin 64) (h w : Fin 128) :
    val_main_v8 (F := Ideal) x (ix4 b c h w)
      = (Cert.Haar.band x 0 b c h w + Cert.Haar.band x 1 b c h w) + (Cert.Haar.band x 2 b c h w + Cert.Haar.band x 3 b c h w) := by
  rw [← v0_at, ← v1_at, ← v2_at, ← v3_at]; rfl
/-- a - c'. -/
theorem v9_at (x : X) (b : Fin 8) (c : Fin 64) (h w : Fin 128) :
    val_main_v9 (F := Ideal) x (ix4 b c h w)
      = (Cert.Haar.band x 0 b c h w + Cert.Haar.band x 1 b c h w) - (Cert.Haar.band x 2 b c h w + Cert.Haar.band x 3 b c h w) := by
  rw [← v0_at, ← v1_at, ← v2_at, ← v3_at]; rfl
/-- b + d, with b = ll - lh and d = hl - hh. -/
theorem v10_at (x : X) (b : Fin 8) (c : Fin 64) (h w : Fin 128) :
    val_main_v10 (F := Ideal) x (ix4 b c h w)
      = (Cert.Haar.band x 0 b c h w - Cert.Haar.band x 1 b c h w) + (Cert.Haar.band x 2 b c h w - Cert.Haar.band x 3 b c h w) := by
  rw [← v0_at, ← v1_at, ← v2_at, ← v3_at]; rfl
/-- b - d. -/
theorem v11_at (x : X) (b : Fin 8) (c : Fin 64) (h w : Fin 128) :
    val_main_v11 (F := Ideal) x (ix4 b c h w)
      = (Cert.Haar.band x 0 b c h w - Cert.Haar.band x 1 b c h w) - (Cert.Haar.band x 2 b c h w - Cert.Haar.band x 3 b c h w) := by
  rw [← v0_at, ← v1_at, ← v2_at, ← v3_at]; rfl

/-- An entry with a trailing unit axis is the entry. -/
theorem v12_at (x : X) (b : Fin 8) (c : Fin 64) (h w : Fin 128) (u : Fin 1) :
    val_main_v12 (F := Ideal) x (ix5 b c h w u) = val_main_v8 (F := Ideal) x (ix4 b c h w) :=
  (val_main_v12_apply x _).trans (congrArg _ (funext fun a => match a with
    | ⟨0, _⟩ => rfl | ⟨1, _⟩ => rfl | ⟨2, _⟩ => rfl | ⟨3, _⟩ => rfl))
theorem v13_at (x : X) (b : Fin 8) (c : Fin 64) (h w : Fin 128) (u : Fin 1) :
    val_main_v13 (F := Ideal) x (ix5 b c h w u) = val_main_v9 (F := Ideal) x (ix4 b c h w) :=
  (val_main_v13_apply x _).trans (congrArg _ (funext fun a => match a with
    | ⟨0, _⟩ => rfl | ⟨1, _⟩ => rfl | ⟨2, _⟩ => rfl | ⟨3, _⟩ => rfl))
theorem v15_at (x : X) (b : Fin 8) (c : Fin 64) (h w : Fin 128) (u : Fin 1) :
    val_main_v15 (F := Ideal) x (ix5 b c h w u) = val_main_v10 (F := Ideal) x (ix4 b c h w) :=
  (val_main_v15_apply x _).trans (congrArg _ (funext fun a => match a with
    | ⟨0, _⟩ => rfl | ⟨1, _⟩ => rfl | ⟨2, _⟩ => rfl | ⟨3, _⟩ => rfl))
theorem v16_at (x : X) (b : Fin 8) (c : Fin 64) (h w : Fin 128) (u : Fin 1) :
    val_main_v16 (F := Ideal) x (ix5 b c h w u) = val_main_v11 (F := Ideal) x (ix4 b c h w) :=
  (val_main_v16_apply x _).trans (congrArg _ (funext fun a => match a with
    | ⟨0, _⟩ => rfl | ⟨1, _⟩ => rfl | ⟨2, _⟩ => rfl | ⟨3, _⟩ => rfl))

/-! ## The four entries of a block, and the result -/

/-- Pixel (r, s) of the result, as the entry of the block over (r / 2, s / 2) in row r % 2 and column s % 2. -/
theorem ref_at (x : X) (b : Fin 8) (c : Fin 64) (r s : Fin 256) :
    val_main_v22 (F := Ideal) x (ix4 b c r s) = Cert.Haar.inverseEntry x b c r s := by
  refine (v22_at x b c r s).trans ((v21_at x _ _ _ _ _ _).trans ?_)
  unfold Cert.Haar.inverseEntry Cert.Haar.pixel
  rcases Nat.mod_two_eq_zero_or_one r.val with hr | hr <;> rcases Nat.mod_two_eq_zero_or_one s.val with hs | hs
  · rw [if_pos hr, if_pos hs]
    exact (v20_left x _ _ _ _ _ _ hr).trans ((v18_at x _ _ _ _ _ _).trans ((v14_left x _ _ _ _ _ hs).trans
      ((v12_at x _ _ _ _ _).trans (v8_at x _ _ _ _))))
  · rw [if_pos hr, if_neg (by omega)]
    exact (v20_left x _ _ _ _ _ _ hr).trans ((v18_at x _ _ _ _ _ _).trans ((v14_right x _ _ _ _ _ hs).trans
      ((v13_at x _ _ _ _ _).trans (v9_at x _ _ _ _))))
  · rw [if_neg (by omega), if_pos hs]
    exact (v20_right x _ _ _ _ _ _ hr).trans ((v19_at x _ _ _ _ _ _).trans ((v17_left x _ _ _ _ _ hs).trans
      ((v15_at x _ _ _ _ _).trans (v10_at x _ _ _ _))))
  · rw [if_neg (by omega), if_neg (by omega)]
    exact (v20_right x _ _ _ _ _ _ hr).trans ((v19_at x _ _ _ _ _ _).trans ((v17_right x _ _ _ _ _ hs).trans
      ((v16_at x _ _ _ _ _).trans (v11_at x _ _ _ _))))

/-- The reference program computes the inverse Haar step. -/
theorem ref_eq (x : (⟨Cert.ReferenceIdeal.S8x256x128x128, .f32⟩ : BufTy).Contents (Elt Ideal)) :
    Cert.ReferenceIdeal.Read.val_main_v22 (F := Ideal) x = Cert.Haar.inverse x := by
  funext o
  obtain ⟨b, c, r, s, rfl⟩ : ∃ (b : Fin 8) (c : Fin 64) (r s : Fin 256), o = ix4 b c r s :=
    ⟨o 0, o 1, o 2, o 3, eq_ix4 o⟩
  exact (ref_at x b c r s).trans (Cert.Haar.inverse_ix4 x b c r s).symm

end Cert.ReferenceIdeal.RefValue

end
-- ==== Proof.lean ====
/-
  The inverse Haar step as a tiled kernel against its plain array-program reference: both end with equal results as
  extended reals, both run to the end and leave the input array unchanged.

  Input [8, 256, 128, 128], four sub-bands of 64 channels; result [8, 64, 256, 256]. Both programs form, at each
  position, a = ll + lh, b = ll - lh, c = hl + hh, d = hl - hh and the 2×2 block (a + c, a - c; b + d, b - d), in that
  order of operations, and interleave the blocks into the result; they differ only in how they lay the work out. The
  kernel reads 16 channels of each sub-band per grid point (four windows on the one input array) and writes the 16
  matching output channels; the reference slices, stacks, transposes and reshapes whole arrays. Entry by entry both
  are the function `Cert.Haar.inverse` of the input (HaarSpec.lean): the kernel's side is KernelPayload.lean (the stored
  value at an entry) and KernelFinal.lean (the blocks tile the result), the reference's side RefValue.lean. No law of
  the extended reals beyond reading the same sums is used, so the precondition (finite inputs) is never opened.

  The frames: the kernel's run is the pipeline library's frame run for windows that share an array
  (LibSharedFrame.lean), with the body's triple and the proof data of BodyBits.lean / BodyIdeal.lean and the launch of
  RunBits.lean / RunIdeal.lean; the reference's is its run with the result dropped. The idealization rewrote nothing,
  so there is nothing to preserve.
-/
import proofs.«171066_j38465727103452_2_alg».proof.Defs
import proofs.«171066_j38465727103452_2_alg».proof.Proof.Gen.Kernel
import proofs.«171066_j38465727103452_2_alg».proof.Proof.Gen.Kernel.Skeleton
import proofs.«171066_j38465727103452_2_alg».proof.Proof.Gen.Kernel.Launch
import proofs.«171066_j38465727103452_2_alg».proof.Proof.Gen.Kernel.Points
import proofs.«171066_j38465727103452_2_alg».proof.Proof.Gen.KernelIdeal
import proofs.«171066_j38465727103452_2_alg».proof.Proof.Gen.KernelIdeal.Skeleton
import proofs.«171066_j38465727103452_2_alg».proof.Proof.Gen.KernelIdeal.Launch
import proofs.«171066_j38465727103452_2_alg».proof.Proof.Gen.KernelIdeal.Points
import proofs.«171066_j38465727103452_2_alg».proof.Proof.Gen.ReferenceIdeal
import proofs.«171066_j38465727103452_2_alg».proof.Proof.Gen.Pre_finite_inputs
import proofs.«171066_j38465727103452_2_alg».proof.Proof.Gen.ReferenceIdeal.Run
import proofs.«171066_j38465727103452_2_alg».proof.Proof.Gen.ReferenceIdeal.Read
import proofs.«171066_j38465727103452_2_alg».proof.Proof.RunBits
import proofs.«171066_j38465727103452_2_alg».proof.Proof.RunIdeal
import proofs.«171066_j38465727103452_2_alg».proof.Proof.KernelFinal
import proofs.«171066_j38465727103452_2_alg».proof.Proof.RefValue

noncomputable section

namespace Cert.Proof

open Idealize.ShloMosaic Idealize.ShloMosaic.TcCoe Idealize.SL.Sem

/-- The kernel as printed runs to the end and leaves the input array as launched. -/
theorem frame_kernel : Cert.frame_Kernel := fun m ρ _ => Cert.Kernel.Hand.frame m ρ

/-- So does the kernel read on the extended reals. -/
theorem frame_kernelIdeal : Cert.frame_KernelIdeal := fun m ρ _ => Cert.KernelIdeal.Hand.frame m ρ

/-- The reference runs to the end and leaves the input array as launched: its run, the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- On the extended reals both programs end with the inverse Haar step of the input array: the kernel's output
    array after all its write-backs, and the reference's last stage, are that one function of inputs that agree. -/
theorem algebraic : Cert.algebraic_KernelIdeal_ReferenceIdeal := by
  intro m ρ m' ρ' _ hagree
  refine ⟨fun c => Cert.Haar.inverse (m ((c.tc : Thread Cert.KernelIdeal.nD Cert.KernelIdeal.τ).loc Cert.KernelIdeal.main_arg0)), ?_, ?_⟩
  · exact (θ_run Cert.KernelIdeal.defs _ _).mono
      (fun r h c => ⟨(h c).1.trans (Cert.KernelIdeal.KFinal.final m c), (h c).2⟩) (Cert.KernelIdeal.Hand.run_named m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v22_eq, Cert.ReferenceIdeal.RefValue.ref_eq, hagree c]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
